-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x3 .f32) (main_arg11 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg10
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x500 .f32) (main_arg1 : IVec S2x1600000 32) (main_arg2 : FVec F S500x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x500 : Shape := ⟨2, ![5000, 500]⟩
abbrev S5000x128 : Shape := ⟨2, ![5000, 128]⟩
abbrev S1700000x128 : Shape := ⟨2, ![1700000, 128]⟩
abbrev S1x128 : Shape := ⟨2, ![1, 128]⟩
abbrev S100000x3 : Shape := ⟨2, ![100000, 3]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 146
  | .vmem => 50
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x3, .f32⟩
  | 11 => ⟨S3, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x500, .f32⟩

abbrev hbmTy0_1 (i : Nat) : BufTy := match i % 128 with
  | 0 => ⟨S100000x3, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x3, .f32⟩
  | 10 => ⟨S1700000x3, .f32⟩
  | 11 => ⟨S1700000x3, .f32⟩
  | 12 => ⟨S_, .f32⟩
  | 13 => ⟨S100000x3, .f32⟩
  | 14 => ⟨S1700000x1, .i32⟩
  | 15 => ⟨S100000x3, .f32⟩
  | 16 => ⟨S1x3, .f32⟩
  | 17 => ⟨S100000x3, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x3, .f32⟩
  | .local _ .vmem, ⟨43, _⟩ => ⟨S5000x3, .f32⟩
  | .local _ .vmem, ⟨44, _⟩ => ⟨S5000x3, .f32⟩
  | .local _ .vmem, ⟨45, _⟩ => ⟨S5000x3, .f32⟩
  | .local _ .vmem, ⟨46, _⟩ => ⟨S5000x3, .f32⟩
  | .local _ .vmem, ⟨47, _⟩ => ⟨S1x3, .f32⟩
  | .local _ .vmem, ⟨48, _⟩ => ⟨S5000x3, .f32⟩
  | .local _ .vmem, ⟨49, _⟩ => ⟨S5000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x3 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x3 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x3 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x3 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  shapeCasts_S3_S1x3 : S3.ShapeCasts S1x3
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x500_S500x128_S5000x128_1_0_0_1_n_n_wf : DotDims.WF S5000x500 S500x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x3.size a ≤ S128x3.size a
  hwx8_1 : ∀ i : grid8.Coords, EltTy.bits .f32 = 32 ∨ (Rect.block (s := S128x3) S128x3.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x3.size a ≤ S100000x3.size a
  hwx8_2 : ∀ i : grid8.Coords, EltTy.bits .f32 = 32 ∨ (Rect.block (s := S100000x3) S5000x3.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x3.size a ≤ S100000x3.size a
  hwx9_0 : ∀ i : grid9.Coords, EltTy.bits .f32 = 32 ∨ (Rect.block (s := S100000x3) S5000x3.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x3.size a ≤ S1x3.size a
  hwx9_1 : ∀ i : grid9.Coords, EltTy.bits .f32 = 32 ∨ (Rect.block (s := S1x3) S1x3.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x3.size a ≤ S100000x3.size a
  hwx9_2 : ∀ i : grid9.Coords, EltTy.bits .f32 = 32 ∨ (Rect.block (s := S100000x3) S5000x3.size (cc9_transform_2 i) (hinb9_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v90) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S128x3.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S5000x3.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v105) S5000x3.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v106) S1x3.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v107) S5000x3.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 163
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x3, .f32⟩
  | 11 => ⟨S3, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x500, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x128, .f32⟩
  | 4 => ⟨S1700000x128, .f32⟩
  | 5 => ⟨S1700000x128, .f32⟩
  | 6 => ⟨S_, .f32⟩
  | 7 => ⟨S100000x128, .f32⟩
  | 8 => ⟨S1700000x1, .i32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x3, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x3, .f32⟩
  | 26 => ⟨S1700000x3, .f32⟩
  | 27 => ⟨S1700000x3, .f32⟩
  | 28 => ⟨S_, .f32⟩
  | 29 => ⟨S100000x3, .f32⟩
  | 30 => ⟨S1700000x1, .i32⟩
  | 31 => ⟨S100000x3, .f32⟩
  | 32 => ⟨S1x3, .f32⟩
  | 33 => ⟨S100000x3, .f32⟩
  | 34 => ⟨S100000x3, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_c_17 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_call4_cst : Ref sig .tc := ⟨.hbm, 141, rfl⟩
abbrev main_call4_v0 : Ref sig .tc := ⟨.hbm, 142, rfl⟩
abbrev main_v100 : Ref sig .tc := ⟨.hbm, 143, rfl⟩
abbrev main_v101 : Ref sig .tc := ⟨.hbm, 144, rfl⟩
abbrev main_c_19 : Ref sig .tc := ⟨.hbm, 145, rfl⟩
abbrev main_v102 : Ref sig .tc := ⟨.hbm, 146, rfl⟩
abbrev main_v103 : Ref sig .tc := ⟨.hbm, 147, rfl⟩
abbrev main_c_20 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.LibHostResults.lean ====
/-
  A buffer after a literal list of host operations, read as the operations' composed term of the contents before the list
  — through two-operand concatenations.

  The library's one-pass reading of a host stretch rewrites each operation's result equation everywhere in the goal.  It does
  not rewrite inside the operands of a `concatenate t a [⟨s₁, x⟩, ⟨s₂, y⟩] h` (a `jnp.stack` or a two-operand
  `jnp.concatenate`): the operands sit in dependent pairs and the concatenation's side condition depends on the list, and
  each operand is left as the whole chain of every result written before it.  `concat2` is the same concatenation with
  its two operands as plain arguments, `concat2_fold` folds a two-operand concatenation into it by `rfl`, and
  `host_results` is the one pass with that fold tried first at every concatenation, so that the pass goes on inside the
  operands.

  Use: on a goal `StableHlo.after ops V (Proc.devRef .tc b) = …` with `ops` a literal list (or a nest of such `after`s
  over several literal lists), `host_results` leaves the operations' composed term over `V` at the buffers the list only
  reads; against a term that spells the concatenations with `concatenate`, `rfl` unfolds `concat2`.
-/
import Idealize.ShloMosaic.Lib.StableHlo.Run

namespace Idealize.ShloMosaic.StableHlo

open Idealize.ShloMosaic

/-- Two arrays joined along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A two-operand concatenation is `concat2` of its operands. -/
theorem concat2_fold {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t a [⟨s1, x⟩, ⟨s2, y⟩] h = concat2 t a s1 s2 h x y := rfl

/-- A buffer after a literal list of host operations, as the operations' composed term of the contents before them: one
    rewriting pass over the operations' result equations, a two-operand concatenation first folded so that the pass goes on
    inside its operands. -/
macro "host_results" : tactic =>
  `(tactic| simp (disch := decide) only [after_cons, after_nil, ↓concat2_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

end Idealize.ShloMosaic.StableHlo
-- ==== Proof.Graph.lean ====
/-
  The host side of the network: the graph pieces both programs compute with the same operations, named once, and what
  each stretch of host operations between two regions leaves in the buffers the next region reads.

  Before the first region the host builds, from the edge list e (2 x 1600000), the source and destination lists with one
  self-loop per node appended, the in-degrees, dis = deg > 0 ? rsqrt (max (deg, 1e-12)) : 0, and the per-edge weight
  dis[src] * dis[dst].  Between a layer's product and its bias the host aggregates: it gathers row src[e] of the product,
  scales it by the edge's weight and adds it into row dst[e] of a zero table; and it recasts the bias vector as one row.
  None of these is opened: the two programs are compared with them as they stand.
-/
import proofs.«164061_j20761871909627_1_alg».proof.Proof.Gen.KernelIdeal.Frame
import Idealize.ShloMosaic.PureOps.Ideal
import proofs.«164061_j20761871909627_1_alg».proof.Proof.LibHostResults

set_option maxRecDepth 16384

noncomputable section

namespace Cert.Gcn

open Idealize.ShloMosaic Idealize.ShloMosaic.TcCoe Idealize.ShloMosaic.StableHlo Idealize.SL.Sem
open Cert.KernelIdeal Cert.KernelIdeal.Gen

/-- A list of node numbers, one per edge (the 1600000 given edges, then one self-loop per node). -/
abbrev Ids := (⟨S1700000, .i32⟩ : BufTy).Contents (Elt Ideal)
/-- One weight per edge, as a column. -/
abbrev EdgeCol := (⟨S1700000x1, .f32⟩ : BufTy).Contents (Elt Ideal)

/-- jnp's reading of a possibly negative index: r < 0 ? r + 100000 : r, entry by entry. -/
def wrap (s : Ids) : Ids :=
  select (cmpi .slt s (broadcastInDim S1700000 ![] bcast_S_S1700000 (constantI S_ 32 0#32)))
    (addi s (broadcastInDim S1700000 ![] bcast_S_S1700000 (constantI S_ 32 100000#32))) s

/-- One aggregation over the edges of a 128-wide feature table: row src[e] of h, times the edge's weight, added into
    row dst[e] of a zero table. -/
def agg128 (src dst : Ids) (norm : EdgeCol) (h : (⟨S100000x128, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (F := Ideal)
      (Host.gather gather_S100000x128_S1700000x1_S1700000x128_1_0_n_n_0_1_1128 h
        (broadcastInDim S1700000x1 ![0] bcast_S1700000_S1700000x1_0 (wrap src)))
      (broadcastInDim S1700000x128 ![0, 1] bcast_S1700000x1_S1700000x128_0_1 norm))

/-- The same aggregation of a 3-wide table (the last layer). -/
def agg3 (src dst : Ids) (norm : EdgeCol) (h : (⟨S100000x3, .f32⟩ : BufTy).Contents (Elt Ideal)) : (⟨S100000x3, .f32⟩ : BufTy).Contents (Elt Ideal) :=
  Host.scatterAdd (F := Ideal) scatter_S100000x3_S1700000x1_S1700000x3_1_0_0_1
    (broadcastInDim S100000x3 ![] bcast_S_S100000x3 (constant (F := Ideal) S_ .f32 0x00000000#32))
    (broadcastInDim S1700000x1 ![0] bcast_S1700000_S1700000x1_0 dst)
    (mulf (F := Ideal)
      (Host.gather gather_S100000x3_S1700000x1_S1700000x3_1_0_n_n_0_1_13 h
        (broadcastInDim S1700000x1 ![0] bcast_S1700000_S1700000x1_0 (wrap src)))
      (broadcastInDim S1700000x3 ![0, 1] bcast_S1700000x1_S1700000x3_0_1 norm))

/-- Row k of the edge list followed by the node numbers 0 .. 99999 (the self-loops): k = 0 the sources, k = 1 the
    destinations. -/
def endsOf (k : Fin 2) (e : (⟨S2x1600000, .i32⟩ : BufTy).Contents (Elt Ideal)) : Ids :=
  match k with
  | ⟨0, _⟩ => concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0
  | ⟨1, _⟩ => concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

def srcOf (e : (⟨S2x1600000, .i32⟩ : BufTy).Contents (Elt Ideal)) : Ids := endsOf 0 e
def dstOf (e : (⟨S2x1600000, .i32⟩ : BufTy).Contents (Elt Ideal)) : Ids := endsOf 1 e

/-- The in-degree of every node over an edge list's destinations: ones added into a zero vector at dst. -/
def degFrom (dst : Ids) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- deg > 0, node by node. -/
def posFrom (dst : Ids) : (⟨S100000, .i1⟩ : BufTy).Contents (Elt Ideal) :=
  cmpf (F := Ideal) .ogt (degFrom dst) (broadcastInDim S100000 ![] bcast_S_S100000 (constant (F := Ideal) S_ .f32 0x00000000#32))

/-- rsqrt (max (deg, 1e-12)), node by node. -/
def rsqrtFrom (dst : Ids) : (⟨S100000, .f32⟩ : BufTy).Contents (Elt Ideal) :=
  Host.rsqrt (F := Ideal) (maximumf (F := Ideal) (degFrom dst) (broadcastInDim S100000 ![] bcast_S_S100000 (constant (F := Ideal) S_ .f32 0x2B8CBCCC#32)))

/-- pos ? r : z, node by node, the scalar z spread over the nodes. -/
def disFrom (pos : (⟨S100000, .i1⟩ : BufTy).Contents (Elt Ideal)) (r : (⟨S100000, .f32⟩ : BufTy).Contents (Elt Ideal)) (z : (⟨S_, .f32⟩ : BufTy).Contents (Elt Ideal)) : (⟨S100000, .f32⟩ : BufTy).Contents (Elt Ideal) :=
  select pos r (broadcastInDim S100000 ![] bcast_S_S100000 (id z))

/-- The symmetric normalisation dis[src] * dis[dst] of every edge, as a column. -/
def normFrom (dis : (⟨S100000, .f32⟩ : BufTy).Contents (Elt Ideal)) (src dst : Ids) : EdgeCol :=
  broadcastInDim S1700000x1 ![0] bcast_S1700000_S1700000x1_0
    (mulf (F := Ideal) (φ := .f32)
      (Host.gather gather_S100000_S1700000x1_S1700000_n_0_n_n_0_1_1 dis
        (broadcastInDim S1700000x1 ![0] bcast_S1700000_S1700000x1_0 (wrap src)))
      (Host.gather gather_S100000_S1700000x1_S1700000_n_0_n_n_0_1_1 dis
        (broadcastInDim S1700000x1 ![0] bcast_S1700000_S1700000x1_0 (wrap dst))))

/-- deg > 0 ? rsqrt (max (deg, 1e-12)) : 0 over the self-looped edge list. -/
def disOf (e : (⟨S2x1600000, .i32⟩ : BufTy).Contents (Elt Ideal)) : (⟨S100000, .f32⟩ : BufTy).Contents (Elt Ideal) :=
  disFrom (posFrom (dstOf e)) (rsqrtFrom (dstOf e)) (constant (F := Ideal) S_ .f32 0x00000000#32)

/-- The per-edge weights of the self-looped edge list. -/
def normOf (e : (⟨S2x1600000, .i32⟩ : BufTy).Contents (Elt Ideal)) : EdgeCol := normFrom (disOf e) (srcOf e) (dstOf e)

/-! ## What the three stretches before the first region leave -/

theorem hostOps0_src (W : Valuation τ sig (Elt Ideal)) :
    StableHlo.after hostOps0 W (Proc.devRef .tc main_v5) = srcOf (W (Proc.devRef .tc main_arg1)) := by
  host_results
  rfl
theorem hostOps0_dst (W : Valuation τ sig (Elt Ideal)) :
    StableHlo.after hostOps0 W (Proc.devRef .tc main_v6) = dstOf (W (Proc.devRef .tc main_arg1)) := by
  host_results
  rfl
theorem hostOps0_pos (W : Valuation τ sig (Elt Ideal)) :
    StableHlo.after hostOps0 W (Proc.devRef .tc main_v12) = posFrom (dstOf (W (Proc.devRef .tc main_arg1))) := by
  host_results
  rfl
theorem hostOps0_rsqrt (W : Valuation τ sig (Elt Ideal)) :
    StableHlo.after hostOps0 W (Proc.devRef .tc main_v15) = rsqrtFrom (dstOf (W (Proc.devRef .tc main_arg1))) := by
  host_results
  rfl
theorem hostOps0_zero (W : Valuation τ sig (Elt Ideal)) :
    StableHlo.after hostOps0 W (Proc.devRef .tc main_cst_3) = constant (F := Ideal) S_ .f32 0x00000000#32 := by
  host_results

/-- The three operations of the where: the selected vector, from the three buffers the stretch reads. -/
theorem hostOps0_1_dis (W : Valuation τ sig (Elt Ideal)) :
    StableHlo.after hostOps0_1 W (Proc.devRef .tc main_v16)
      = disFrom (W (Proc.devRef .tc main_v12)) (W (Proc.devRef .tc main_v15)) (W (Proc.devRef .tc main_cst_3)) := by
  host_results
  rfl

theorem hostOps0_2_norm (W : Valuation τ sig (Elt Ideal)) :
    StableHlo.after hostOps0_2 W (Proc.devRef .tc main_v32)
      = normFrom (W (Proc.devRef .tc main_v16)) (W (Proc.devRef .tc main_v5)) (W (Proc.devRef .tc main_v6)) := by
  host_results
  rfl

/-! ## What each stretch between two regions leaves -/

/-- The stretch hostOps1 leaves, in main_v45, the aggregation of the table it finds in main_v33. -/
theorem hostOps1_agg (W : Valuation τ sig (Elt Ideal)) :
    StableHlo.after hostOps1 W (Proc.devRef .tc main_v45)
      = agg128 (W (Proc.devRef .tc main_v5)) (W (Proc.devRef .tc main_v6)) (W (Proc.devRef .tc main_v32)) (W (Proc.devRef .tc main_v33)) := by
  host_results
  rfl
/-- The stretch hostOps1 leaves, in main_v46, the bias vector it finds in main_arg3 recast as one row. -/
theorem hostOps1_row (W : Valuation τ sig (Elt Ideal)) :
    StableHlo.after hostOps1 W (Proc.devRef .tc main_v46) = shapeCast S1x128 (W (Proc.devRef .tc main_arg3)) shapeCasts_S128_S1x128 := by
  host_results
  rfl

/-- The stretch hostOps3 leaves, in main_v60, the aggregation of the table it finds in main_v48. -/
theorem hostOps3_agg (W : Valuation τ sig (Elt Ideal)) :
    StableHlo.after hostOps3 W (Proc.devRef .tc main_v60)
      = agg128 (W (Proc.devRef .tc main_v5)) (W (Proc.devRef .tc main_v6)) (W (Proc.devRef .tc main_v32)) (W (Proc.devRef .tc main_v48)) := by
  host_results
  rfl
/-- The stretch hostOps3 leaves, in main_v61, the bias vector it finds in main_arg5 recast as one row. -/
theorem hostOps3_row (W : Valuation τ sig (Elt Ideal)) :
    StableHlo.after hostOps3 W (Proc.devRef .tc main_v61) = shapeCast S1x128 (W (Proc.devRef .tc main_arg5)) shapeCasts_S128_S1x128 := by
  host_results
  rfl

/-- The stretch hostOps5 leaves, in main_v75, the aggregation of the table it finds in main_v63. -/
theorem hostOps5_agg (W : Valuation τ sig (Elt Ideal)) :
    StableHlo.after hostOps5 W (Proc.devRef .tc main_v75)
      = agg128 (W (Proc.devRef .tc main_v5)) (W (Proc.devRef .tc main_v6)) (W (Proc.devRef .tc main_v32)) (W (Proc.devRef .tc main_v63)) := by
  host_results
  rfl
/-- The stretch hostOps5 leaves, in main_v76, the bias vector it finds in main_arg7 recast as one row. -/
theorem hostOps5_row (W : Valuation τ sig (Elt Ideal)) :
    StableHlo.after hostOps5 W (Proc.devRef .tc main_v76) = shapeCast S1x128 (W (Proc.devRef .tc main_arg7)) shapeCasts_S128_S1x128 := by
  host_results
  rfl

/-- The stretch hostOps7 leaves, in main_v90, the aggregation of the table it finds in main_v78. -/
theorem hostOps7_agg (W : Valuation τ sig (Elt Ideal)) :
    StableHlo.after hostOps7 W (Proc.devRef .tc main_v90)
      = agg128 (W (Proc.devRef .tc main_v5)) (W (Proc.devRef .tc main_v6)) (W (Proc.devRef .tc main_v32)) (W (Proc.devRef .tc main_v78)) := by
  host_results
  rfl
/-- The stretch hostOps7 leaves, in main_v91, the bias vector it finds in main_arg9 recast as one row. -/
theorem hostOps7_row (W : Valuation τ sig (Elt Ideal)) :
    StableHlo.after hostOps7 W (Proc.devRef .tc main_v91) = shapeCast S1x128 (W (Proc.devRef .tc main_arg9)) shapeCasts_S128_S1x128 := by
  host_results
  rfl

/-- The stretch hostOps9 leaves, in main_v105, the aggregation of the table it finds in main_v93. -/
theorem hostOps9_agg (W : Valuation τ sig (Elt Ideal)) :
    StableHlo.after hostOps9 W (Proc.devRef .tc main_v105)
      = agg3 (W (Proc.devRef .tc main_v5)) (W (Proc.devRef .tc main_v6)) (W (Proc.devRef .tc main_v32)) (W (Proc.devRef .tc main_v93)) := by
  host_results
  rfl
/-- The stretch hostOps9 leaves, in main_v106, the bias vector it finds in main_arg11 recast as one row. -/
theorem hostOps9_row (W : Valuation τ sig (Elt Ideal)) :
    StableHlo.after hostOps9 W (Proc.devRef .tc main_v106) = shapeCast S1x3 (W (Proc.devRef .tc main_arg11)) shapeCasts_S3_S1x3 := by
  host_results
  rfl

end Cert.Gcn

end
-- ==== Proof.KeepA.lean ====
/-
  Buffers carried along the fold, steps 0 to 8.

  The fold through the program's segments rewrites, at a host stretch, the buffers its operations write, and at a region
  the region's output array; every other buffer keeps its contents.  For each step, and for the buffers a later step
  still reads (the weights and biases not yet used, and the source list, destination list and edge weights built before
  the first region), this module says so: the buffer after the step holds what it held before.
-/
import proofs.«164061_j20761871909627_1_alg».proof.Proof.Gen.KernelIdeal.Frame
import Idealize.ShloMosaic.PureOps.Ideal

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Across step 0 of the fold the listed buffers are carried along: no operation of hostOps0 writes any of them. -/
theorem keep0 (c : Dev nD) (b : Ref sig .tc) (hb : b ∈ ([main_arg0, main_arg2, main_arg3, main_arg4, main_arg5, main_arg6, main_arg7, main_arg8, main_arg9, main_arg10, main_arg11] : List (Ref sig .tc))) :
    W1 m ρ c (Proc.devRef .tc b) = W0 m ρ c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 1 of the fold the listed buffers are carried along: no operation of hostOps0_1 writes any of them. -/
theorem keep1 (c : Dev nD) (b : Ref sig .tc) (hb : b ∈ ([main_arg0, main_arg2, main_arg3, main_arg4, main_arg5, main_arg6, main_arg7, main_arg8, main_arg9, main_arg10, main_arg11] : List (Ref sig .tc))) :
    W2 m ρ c (Proc.devRef .tc b) = W1 m ρ c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 2 of the fold the listed buffers are carried along: no operation of hostOps0_2 writes any of them. -/
theorem keep2 (c : Dev nD) (b : Ref sig .tc) (hb : b ∈ ([main_arg0, main_arg2, main_arg3, main_arg4, main_arg5, main_arg6, main_arg7, main_arg8, main_arg9, main_arg10, main_arg11] : List (Ref sig .tc))) :
    W3 m ρ c (Proc.devRef .tc b) = W2 m ρ c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 3 of the fold the listed buffers are carried along: region 0 writes only its own output array, and none of them is one of its arrays. -/
theorem keep3 (c : Dev nD) (b : Ref sig .tc) (hb : b ∈ ([main_arg3, main_arg4, main_arg5, main_arg6, main_arg7, main_arg8, main_arg9, main_arg10, main_arg11, main_v5, main_v6, main_v32] : List (Ref sig .tc))) :
    W4 m ρ c (Proc.devRef .tc b) = W3 m ρ c (Proc.devRef .tc b) := by
  simp only [List.mem_cons, List.mem_nil_iff, or_false] at hb
  rcases hb with rfl | rfl | rfl | rfl | rfl | rfl | rfl | rfl | rfl | rfl | rfl | rfl
  all_goals
    exact W4_of_ne m ρ c _ (by decide)

/-- Across step 4 of the fold the listed buffers are carried along: no operation of hostOps1 writes any of them. -/
theorem keep4 (c : Dev nD) (b : Ref sig .tc) (hb : b ∈ ([main_arg4, main_arg5, main_arg6, main_arg7, main_arg8, main_arg9, main_arg10, main_arg11, main_v5, main_v6, main_v32] : List (Ref sig .tc))) :
    W5 m ρ c (Proc.devRef .tc b) = W4 m ρ c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 5 of the fold the listed buffers are carried along: region 1 writes only its own output array, and none of them is one of its arrays. -/
theorem keep5 (c : Dev nD) (b : Ref sig .tc) (hb : b ∈ ([main_arg4, main_arg5, main_arg6, main_arg7, main_arg8, main_arg9, main_arg10, main_arg11, main_v5, main_v6, main_v32] : List (Ref sig .tc))) :
    W6 m ρ c (Proc.devRef .tc b) = W5 m ρ c (Proc.devRef .tc b) := by
  simp only [List.mem_cons, List.mem_nil_iff, or_false] at hb
  rcases hb with rfl | rfl | rfl | rfl | rfl | rfl | rfl | rfl | rfl | rfl | rfl
  all_goals
    exact W6_of_ne m ρ c _ (by decide)

/-- Across step 6 of the fold the listed buffers are carried along: region 2 writes only its own output array, and none of them is one of its arrays. -/
theorem keep6 (c : Dev nD) (b : Ref sig .tc) (hb : b ∈ ([main_arg5, main_arg6, main_arg7, main_arg8, main_arg9, main_arg10, main_arg11, main_v5, main_v6, main_v32] : List (Ref sig .tc))) :
    W7 m ρ c (Proc.devRef .tc b) = W6 m ρ c (Proc.devRef .tc b) := by
  simp only [List.mem_cons, List.mem_nil_iff, or_false] at hb
  rcases hb with rfl | rfl | rfl | rfl | rfl | rfl | rfl | rfl | rfl | rfl
  all_goals
    exact W7_of_ne m ρ c _ (by decide)

/-- Across step 7 of the fold the listed buffers are carried along: no operation of hostOps3 writes any of them. -/
theorem keep7 (c : Dev nD) (b : Ref sig .tc) (hb : b ∈ ([main_arg6, main_arg7, main_arg8, main_arg9, main_arg10, main_arg11, main_v5, main_v6, main_v32] : List (Ref sig .tc))) :
    W8 m ρ c (Proc.devRef .tc b) = W7 m ρ c (Proc.devRef .tc b) := by
  simp only [List.mem_cons, List.mem_nil_iff, or_false] at hb
  rcases hb with rfl | rfl | rfl | rfl | rfl | rfl | rfl | rfl | rfl
  all_goals
    exact StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 8 of the fold the listed buffers are carried along: region 3 writes only its own output array, and none of them is one of its arrays. -/
theorem keep8 (c : Dev nD) (b : Ref sig .tc) (hb : b ∈ ([main_arg6, main_arg7, main_arg8, main_arg9, main_arg10, main_arg11, main_v5, main_v6, main_v32] : List (Ref sig .tc))) :
    W9 m ρ c (Proc.devRef .tc b) = W8 m ρ c (Proc.devRef .tc b) := by
  simp only [List.mem_cons, List.mem_nil_iff, or_false] at hb
  rcases hb with rfl | rfl | rfl | rfl | rfl | rfl | rfl | rfl | rfl
  all_goals
    exact W9_of_ne m ρ c _ (by decide)

end Cert.Gcn

end
-- ==== Proof.KeepB.lean ====
/-
  Buffers carried along the fold, steps 9 to 15 (the same statement as for the earlier steps: the weights and biases not
  yet used and the three graph buffers are written by none of these steps).
-/
import proofs.«164061_j20761871909627_1_alg».proof.Proof.Gen.KernelIdeal.Frame
import Idealize.ShloMosaic.PureOps.Ideal

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Across step 9 of the fold the listed buffers are carried along: region 4 writes only its own output array, and none of them is one of its arrays. -/
theorem keep9 (c : Dev nD) (b : Ref sig .tc) (hb : b ∈ ([main_arg7, main_arg8, main_arg9, main_arg10, main_arg11, main_v5, main_v6, main_v32] : List (Ref sig .tc))) :
    W10 m ρ c (Proc.devRef .tc b) = W9 m ρ c (Proc.devRef .tc b) := by
  simp only [List.mem_cons, List.mem_nil_iff, or_false] at hb
  rcases hb with rfl | rfl | rfl | rfl | rfl | rfl | rfl | rfl
  all_goals
    exact W10_of_ne m ρ c _ (by decide)

/-- Across step 10 of the fold the listed buffers are carried along: no operation of hostOps5 writes any of them. -/
theorem keep10 (c : Dev nD) (b : Ref sig .tc) (hb : b ∈ ([main_arg8, main_arg9, main_arg10, main_arg11, main_v5, main_v6, main_v32] : List (Ref sig .tc))) :
    W11 m ρ c (Proc.devRef .tc b) = W10 m ρ c (Proc.devRef .tc b) := by
  simp only [List.mem_cons, List.mem_nil_iff, or_false] at hb
  rcases hb with rfl | rfl | rfl | rfl | rfl | rfl | rfl
  all_goals
    exact StableHlo.after_of_forall_not_mem _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 11 of the fold the listed buffers are carried along: region 5 writes only its own output array, and none of them is one of its arrays. -/
theorem keep11 (c : Dev nD) (b : Ref sig .tc) (hb : b ∈ ([main_arg8, main_arg9, main_arg10, main_arg11, main_v5, main_v6, main_v32] : List (Ref sig .tc))) :
    W12 m ρ c (Proc.devRef .tc b) = W11 m ρ c (Proc.devRef .tc b) := by
  simp only [List.mem_cons, List.mem_nil_iff, or_false] at hb
  rcases hb with rfl | rfl | rfl | rfl | rfl | rfl | rfl
  all_goals
    exact W12_of_ne m ρ c _ (by decide)

/-- Across step 12 of the fold the listed buffers are carried along: region 6 writes only its own output array, and none of them is one of its arrays. -/
theorem keep12 (c : Dev nD) (b : Ref sig .tc) (hb : b ∈ ([main_arg9, main_arg10, main_arg11, main_v5, main_v6, main_v32] : List (Ref sig .tc))) :
    W13 m ρ c (Proc.devRef .tc b) = W12 m ρ c (Proc.devRef .tc b) := by
  simp only [List.mem_cons, List.mem_nil_iff, or_false] at hb
  rcases hb with rfl | rfl | rfl | rfl | rfl | rfl
  all_goals
    exact W13_of_ne m ρ c _ (by decide)

/-- Across step 13 of the fold the listed buffers are carried along: no operation of hostOps7 writes any of them. -/
theorem keep13 (c : Dev nD) (b : Ref sig .tc) (hb : b ∈ ([main_arg10, main_arg11, main_v5, main_v6, main_v32] : List (Ref sig .tc))) :
    W14 m ρ c (Proc.devRef .tc b) = W13 m ρ c (Proc.devRef .tc b) := by
  simp only [List.mem_cons, List.mem_nil_iff, or_false] at hb
  rcases hb with rfl | rfl | rfl | rfl | rfl
  all_goals
    exact StableHlo.after_of_forall_not_mem _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Across step 14 of the fold the listed buffers are carried along: region 7 writes only its own output array, and none of them is one of its arrays. -/
theorem keep14 (c : Dev nD) (b : Ref sig .tc) (hb : b ∈ ([main_arg10, main_arg11, main_v5, main_v6, main_v32] : List (Ref sig .tc))) :
    W15 m ρ c (Proc.devRef .tc b) = W14 m ρ c (Proc.devRef .tc b) := by
  simp only [List.mem_cons, List.mem_nil_iff, or_false] at hb
  rcases hb with rfl | rfl | rfl | rfl | rfl
  all_goals
    exact W15_of_ne m ρ c _ (by decide)

/-- Across step 15 of the fold the listed buffers are carried along: region 8 writes only its own output array, and none of them is one of its arrays. -/
theorem keep15 (c : Dev nD) (b : Ref sig .tc) (hb : b ∈ ([main_arg11, main_v5, main_v6, main_v32] : List (Ref sig .tc))) :
    W16 m ρ c (Proc.devRef .tc b) = W15 m ρ c (Proc.devRef .tc b) := by
  simp only [List.mem_cons, List.mem_nil_iff, or_false] at hb
  rcases hb with rfl | rfl | rfl | rfl
  all_goals
    exact W16_of_ne m ρ c _ (by decide)

end Cert.Gcn

end
-- ==== Proof.Entry.lean ====
/-
  What later steps find in the buffers they read.

  The source list, the destination list and the per-edge weights are written once, by the host operations before the first
  region, as functions of the edge list; every weight matrix and bias vector is an argument, written by nothing.  A later
  stretch or region reads them where the fold has carried them: this module states, for each such read, that the buffer
  holds at that boundary what it held at the first region's entry (the three graph buffers) or at the launch (the arguments),
  and what the three graph buffers hold there as functions of the edge list.
-/
import proofs.«164061_j20761871909627_1_alg».proof.Proof.Graph
import proofs.«164061_j20761871909627_1_alg».proof.Proof.KeepA
import proofs.«164061_j20761871909627_1_alg».proof.Proof.KeepB

set_option maxRecDepth 16384

noncomputable section

namespace Cert.Gcn

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## The arguments, where they are read -/

theorem arg0_at3 (c : Dev nD) : W3 m ρ c (Proc.devRef .tc main_arg0) = m ((c : Thread nD τ).loc main_arg0) :=
  ((keep2 m ρ c main_arg0 (by decide)).trans ((keep1 m ρ c main_arg0 (by decide)).trans (keep0 m ρ c main_arg0 (by decide)))).trans rfl
theorem arg2_at3 (c : Dev nD) : W3 m ρ c (Proc.devRef .tc main_arg2) = m ((c : Thread nD τ).loc main_arg2) :=
  ((keep2 m ρ c main_arg2 (by decide)).trans ((keep1 m ρ c main_arg2 (by decide)).trans (keep0 m ρ c main_arg2 (by decide)))).trans rfl
theorem arg3_at4 (c : Dev nD) : W4 m ρ c (Proc.devRef .tc main_arg3) = m ((c : Thread nD τ).loc main_arg3) :=
  ((keep3 m ρ c main_arg3 (by decide)).trans ((keep2 m ρ c main_arg3 (by decide)).trans ((keep1 m ρ c main_arg3 (by decide)).trans (keep0 m ρ c main_arg3 (by decide))))).trans rfl
theorem arg4_at6 (c : Dev nD) : W6 m ρ c (Proc.devRef .tc main_arg4) = m ((c : Thread nD τ).loc main_arg4) :=
  ((keep5 m ρ c main_arg4 (by decide)).trans ((keep4 m ρ c main_arg4 (by decide)).trans ((keep3 m ρ c main_arg4 (by decide)).trans ((keep2 m ρ c main_arg4 (by decide)).trans ((keep1 m ρ c main_arg4 (by decide)).trans (keep0 m ρ c main_arg4 (by decide))))))).trans rfl
theorem arg5_at7 (c : Dev nD) : W7 m ρ c (Proc.devRef .tc main_arg5) = m ((c : Thread nD τ).loc main_arg5) :=
  ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans ((keep1 m ρ c main_arg5 (by decide)).trans (keep0 m ρ c main_arg5 (by decide)))))))).trans rfl
theorem arg6_at9 (c : Dev nD) : W9 m ρ c (Proc.devRef .tc main_arg6) = m ((c : Thread nD τ).loc main_arg6) :=
  ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans ((keep1 m ρ c main_arg6 (by decide)).trans (keep0 m ρ c main_arg6 (by decide)))))))))).trans rfl
theorem arg7_at10 (c : Dev nD) : W10 m ρ c (Proc.devRef .tc main_arg7) = m ((c : Thread nD τ).loc main_arg7) :=
  ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)).trans (keep0 m ρ c main_arg7 (by decide))))))))))).trans rfl
theorem arg8_at12 (c : Dev nD) : W12 m ρ c (Proc.devRef .tc main_arg8) = m ((c : Thread nD τ).loc main_arg8) :=
  ((keep11 m ρ c main_arg8 (by decide)).trans ((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans ((keep1 m ρ c main_arg8 (by decide)).trans (keep0 m ρ c main_arg8 (by decide))))))))))))).trans rfl
theorem arg9_at13 (c : Dev nD) : W13 m ρ c (Proc.devRef .tc main_arg9) = m ((c : Thread nD τ).loc main_arg9) :=
  ((keep12 m ρ c main_arg9 (by decide)).trans ((keep11 m ρ c main_arg9 (by decide)).trans ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans ((keep1 m ρ c main_arg9 (by decide)).trans (keep0 m ρ c main_arg9 (by decide)))))))))))))).trans rfl
theorem arg10_at15 (c : Dev nD) : W15 m ρ c (Proc.devRef .tc main_arg10) = m ((c : Thread nD τ).loc main_arg10) :=
  ((keep14 m ρ c main_arg10 (by decide)).trans ((keep13 m ρ c main_arg10 (by decide)).trans ((keep12 m ρ c main_arg10 (by decide)).trans ((keep11 m ρ c main_arg10 (by decide)).trans ((keep10 m ρ c main_arg10 (by decide)).trans ((keep9 m ρ c main_arg10 (by decide)).trans ((keep8 m ρ c main_arg10 (by decide)).trans ((keep7 m ρ c main_arg10 (by decide)).trans ((keep6 m ρ c main_arg10 (by decide)).trans ((keep5 m ρ c main_arg10 (by decide)).trans ((keep4 m ρ c main_arg10 (by decide)).trans ((keep3 m ρ c main_arg10 (by decide)).trans ((keep2 m ρ c main_arg10 (by decide)).trans ((keep1 m ρ c main_arg10 (by decide)).trans (keep0 m ρ c main_arg10 (by decide)))))))))))))))).trans rfl
theorem arg11_at16 (c : Dev nD) : W16 m ρ c (Proc.devRef .tc main_arg11) = m ((c : Thread nD τ).loc main_arg11) :=
  ((keep15 m ρ c main_arg11 (by decide)).trans ((keep14 m ρ c main_arg11 (by decide)).trans ((keep13 m ρ c main_arg11 (by decide)).trans ((keep12 m ρ c main_arg11 (by decide)).trans ((keep11 m ρ c main_arg11 (by decide)).trans ((keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)).trans (keep0 m ρ c main_arg11 (by decide))))))))))))))))).trans rfl

/-! ## The three graph buffers, where they are read -/

theorem v5_at4 (c : Dev nD) : W4 m ρ c (Proc.devRef .tc main_v5) = W3 m ρ c (Proc.devRef .tc main_v5) :=
  (keep3 m ρ c main_v5 (by decide))
theorem v6_at4 (c : Dev nD) : W4 m ρ c (Proc.devRef .tc main_v6) = W3 m ρ c (Proc.devRef .tc main_v6) :=
  (keep3 m ρ c main_v6 (by decide))
theorem v32_at4 (c : Dev nD) : W4 m ρ c (Proc.devRef .tc main_v32) = W3 m ρ c (Proc.devRef .tc main_v32) :=
  (keep3 m ρ c main_v32 (by decide))
theorem v5_at7 (c : Dev nD) : W7 m ρ c (Proc.devRef .tc main_v5) = W3 m ρ c (Proc.devRef .tc main_v5) :=
  ((keep6 m ρ c main_v5 (by decide)).trans ((keep5 m ρ c main_v5 (by decide)).trans ((keep4 m ρ c main_v5 (by decide)).trans (keep3 m ρ c main_v5 (by decide)))))
theorem v6_at7 (c : Dev nD) : W7 m ρ c (Proc.devRef .tc main_v6) = W3 m ρ c (Proc.devRef .tc main_v6) :=
  ((keep6 m ρ c main_v6 (by decide)).trans ((keep5 m ρ c main_v6 (by decide)).trans ((keep4 m ρ c main_v6 (by decide)).trans (keep3 m ρ c main_v6 (by decide)))))
theorem v32_at7 (c : Dev nD) : W7 m ρ c (Proc.devRef .tc main_v32) = W3 m ρ c (Proc.devRef .tc main_v32) :=
  ((keep6 m ρ c main_v32 (by decide)).trans ((keep5 m ρ c main_v32 (by decide)).trans ((keep4 m ρ c main_v32 (by decide)).trans (keep3 m ρ c main_v32 (by decide)))))
theorem v5_at10 (c : Dev nD) : W10 m ρ c (Proc.devRef .tc main_v5) = W3 m ρ c (Proc.devRef .tc main_v5) :=
  ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans (keep3 m ρ c main_v5 (by decide))))))))
theorem v6_at10 (c : Dev nD) : W10 m ρ c (Proc.devRef .tc main_v6) = W3 m ρ c (Proc.devRef .tc main_v6) :=
  ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans (keep3 m ρ c main_v6 (by decide))))))))
theorem v32_at10 (c : Dev nD) : W10 m ρ c (Proc.devRef .tc main_v32) = W3 m ρ c (Proc.devRef .tc main_v32) :=
  ((keep9 m ρ c main_v32 (by decide)).trans ((keep8 m ρ c main_v32 (by decide)).trans ((keep7 m ρ c main_v32 (by decide)).trans ((keep6 m ρ c main_v32 (by decide)).trans ((keep5 m ρ c main_v32 (by decide)).trans ((keep4 m ρ c main_v32 (by decide)).trans (keep3 m ρ c main_v32 (by decide))))))))
theorem v5_at13 (c : Dev nD) : W13 m ρ c (Proc.devRef .tc main_v5) = W3 m ρ c (Proc.devRef .tc main_v5) :=
  ((keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans (keep3 m ρ c main_v5 (by decide)))))))))))
theorem v6_at13 (c : Dev nD) : W13 m ρ c (Proc.devRef .tc main_v6) = W3 m ρ c (Proc.devRef .tc main_v6) :=
  ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans (keep3 m ρ c main_v6 (by decide)))))))))))
theorem v32_at13 (c : Dev nD) : W13 m ρ c (Proc.devRef .tc main_v32) = W3 m ρ c (Proc.devRef .tc main_v32) :=
  ((keep12 m ρ c main_v32 (by decide)).trans ((keep11 m ρ c main_v32 (by decide)).trans ((keep10 m ρ c main_v32 (by decide)).trans ((keep9 m ρ c main_v32 (by decide)).trans ((keep8 m ρ c main_v32 (by decide)).trans ((keep7 m ρ c main_v32 (by decide)).trans ((keep6 m ρ c main_v32 (by decide)).trans ((keep5 m ρ c main_v32 (by decide)).trans ((keep4 m ρ c main_v32 (by decide)).trans (keep3 m ρ c main_v32 (by decide)))))))))))
theorem v5_at16 (c : Dev nD) : W16 m ρ c (Proc.devRef .tc main_v5) = W3 m ρ c (Proc.devRef .tc main_v5) :=
  ((keep15 m ρ c main_v5 (by decide)).trans ((keep14 m ρ c main_v5 (by decide)).trans ((keep13 m ρ c main_v5 (by decide)).trans ((keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans ((keep4 m ρ c main_v5 (by decide)).trans (keep3 m ρ c main_v5 (by decide))))))))))))))
theorem v6_at16 (c : Dev nD) : W16 m ρ c (Proc.devRef .tc main_v6) = W3 m ρ c (Proc.devRef .tc main_v6) :=
  ((keep15 m ρ c main_v6 (by decide)).trans ((keep14 m ρ c main_v6 (by decide)).trans ((keep13 m ρ c main_v6 (by decide)).trans ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans ((keep4 m ρ c main_v6 (by decide)).trans (keep3 m ρ c main_v6 (by decide))))))))))))))
theorem v32_at16 (c : Dev nD) : W16 m ρ c (Proc.devRef .tc main_v32) = W3 m ρ c (Proc.devRef .tc main_v32) :=
  ((keep15 m ρ c main_v32 (by decide)).trans ((keep14 m ρ c main_v32 (by decide)).trans ((keep13 m ρ c main_v32 (by decide)).trans ((keep12 m ρ c main_v32 (by decide)).trans ((keep11 m ρ c main_v32 (by decide)).trans ((keep10 m ρ c main_v32 (by decide)).trans ((keep9 m ρ c main_v32 (by decide)).trans ((keep8 m ρ c main_v32 (by decide)).trans ((keep7 m ρ c main_v32 (by decide)).trans ((keep6 m ρ c main_v32 (by decide)).trans ((keep5 m ρ c main_v32 (by decide)).trans ((keep4 m ρ c main_v32 (by decide)).trans (keep3 m ρ c main_v32 (by decide))))))))))))))

/-! ## The three graph buffers at the first region's entry, as functions of the edge list

  The first stretch builds the two lists, the degree test and the inverse square roots from the edge list; the second (the
  where) selects; the third gathers at the wrapped lists and multiplies.  Neither later stretch writes the two lists. -/

theorem v5_at2 (c : Dev nD) : W2 m ρ c (Proc.devRef .tc main_v5) = W1 m ρ c (Proc.devRef .tc main_v5) := by
  exact StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v6_at2 (c : Dev nD) : W2 m ρ c (Proc.devRef .tc main_v6) = W1 m ρ c (Proc.devRef .tc main_v6) := by
  exact StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v5_at3 (c : Dev nD) : W3 m ρ c (Proc.devRef .tc main_v5) = W2 m ρ c (Proc.devRef .tc main_v5) := by
  exact StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem v6_at3 (c : Dev nD) : W3 m ρ c (Proc.devRef .tc main_v6) = W2 m ρ c (Proc.devRef .tc main_v6) := by
  exact StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem src_at3 (c : Dev nD) : W3 m ρ c (Proc.devRef .tc main_v5) = srcOf (m ((c : Thread nD τ).loc main_arg1)) := by
  rw [v5_at3 m ρ c, v5_at2 m ρ c]
  exact hostOps0_src (W0 m ρ c)

theorem dst_at3 (c : Dev nD) : W3 m ρ c (Proc.devRef .tc main_v6) = dstOf (m ((c : Thread nD τ).loc main_arg1)) := by
  rw [v6_at3 m ρ c, v6_at2 m ρ c]
  exact hostOps0_dst (W0 m ρ c)

theorem norm_at3 (c : Dev nD) : W3 m ρ c (Proc.devRef .tc main_v32) = normOf (m ((c : Thread nD τ).loc main_arg1)) := by
  have h3 : W3 m ρ c (Proc.devRef .tc main_v32) = normFrom (W2 m ρ c (Proc.devRef .tc main_v16)) (W2 m ρ c (Proc.devRef .tc main_v5)) (W2 m ρ c (Proc.devRef .tc main_v6)) :=
    hostOps0_2_norm (W2 m ρ c)
  have h2 : W2 m ρ c (Proc.devRef .tc main_v16) = disFrom (W1 m ρ c (Proc.devRef .tc main_v12)) (W1 m ρ c (Proc.devRef .tc main_v15)) (W1 m ρ c (Proc.devRef .tc main_cst_3)) :=
    hostOps0_1_dis (W1 m ρ c)
  have a : W1 m ρ c (Proc.devRef .tc main_v12) = posFrom (dstOf (W0 m ρ c (Proc.devRef .tc main_arg1))) := hostOps0_pos (W0 m ρ c)
  have b : W1 m ρ c (Proc.devRef .tc main_v15) = rsqrtFrom (dstOf (W0 m ρ c (Proc.devRef .tc main_arg1))) := hostOps0_rsqrt (W0 m ρ c)
  have z : W1 m ρ c (Proc.devRef .tc main_cst_3) = constant (F := Ideal) S_ .f32 0x00000000#32 := hostOps0_zero (W0 m ρ c)
  have s : W1 m ρ c (Proc.devRef .tc main_v5) = srcOf (W0 m ρ c (Proc.devRef .tc main_arg1)) := hostOps0_src (W0 m ρ c)
  have d : W1 m ρ c (Proc.devRef .tc main_v6) = dstOf (W0 m ρ c (Proc.devRef .tc main_arg1)) := hostOps0_dst (W0 m ρ c)
  rw [h3, h2, v5_at2 m ρ c, v6_at2 m ρ c, a, b, z, s, d]
  rfl

end Cert.Gcn

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibHostDense.lean ====
/-
  A HOST DENSE LAYER READ AT A (ROW, COLUMN), at the extended reals.

  For x : [M, K], w : [K, N] under plain dimension numbers, a bias vector b : [N] recast as a row [1, N] and broadcast
  down the M rows, and the zero scalar broadcast over [M, N]:

  * hostDot_ix2        : (x · w)(r, c) = Σ_k x(r, k) · w(k, c);
  * hostAffine_ix2     : (x · w + bias)(r, c) = Σ_k x(r, k) · w(k, c) + b c;
  * hostAffineRelu_ix2 : max(x · w + bias, 0)(r, c) = max(Σ_k x(r, k) · w(k, c) + b c, 0);
  * hostBiasRelu_ix2   : max(a + bias, 0)(r, c) = max(a(r, c) + b c, 0) for any array a : [M, N];
  * hostZeros_ix2      : the broadcast zero scalar is 0 at every (r, c).
-/
import proofs.«164061_j20761871909627_1_alg».proof.Proof.LibDotIx2
import proofs.«164061_j20761871909627_1_alg».proof.Proof.LibBroadcastInDim

noncomputable section

open scoped BigOperators

namespace Idealize.ShloMosaic.ValueIdx

open Idealize.ShloMosaic

/-- The host's plain product at (r, c) is the sum over the inner position. -/
theorem hostDot_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (r : Fin M) (c : Fin N) :
    Host.dotGeneral d prec x w (ix2 r c) = ∑ k : Fin K, (x (ix2 r k) : EReal) * (w (ix2 k c) : EReal) := by
  simp only [Host.dotGeneral]
  exact dotGeneral_ix2_any hd _ _ x w r c

/-- The zero scalar broadcast over a two-axis shape is 0 everywhere. -/
theorem hostZeros_ix2 {M N : ℕ} (h0 : (⟨0, ![]⟩ : Shape).BroadcastsInDim (⟨2, ![M, N]⟩ : Shape) ![]) (i : (⟨2, ![M, N]⟩ : Shape).Idx) :
    (broadcastInDim (⟨2, ![M, N]⟩ : Shape) ![] h0 (constant (F := Ideal) (⟨0, ![]⟩ : Shape) .f32 0x00000000#32) i : EReal) = 0 := by
  rw [broadcastInDim_scalar_apply]
  exact Ideal.ofBits_zero_f32

/-- A bias vector recast as a row and broadcast down the rows, at (r, c), is its entry c. -/
theorem hostBiasRow_ix2 {M N : ℕ} (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    broadcastInDim (⟨2, ![M, N]⟩ : Shape) ![0, 1] h2 (broadcastInDim (⟨2, ![1, N]⟩ : Shape) ![1] h1 b) (ix2 r c) = b (ix1 c) := by
  rw [broadcastInDim_row_mat_apply, broadcastInDim_vec_row_apply]

/-- Bias and relu on any array: max(a + bias, 0) at (r, c). -/
theorem hostBiasRelu_ix2 {M N : ℕ} (a : FVec Ideal (⟨2, ![M, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf a (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((a (ix2 r c) : EReal) + (b (ix1 c) : EReal)) 0 := by
  show FloatOps.maximumf (FloatOps.addf (a (ix2 r c)) (broadcastInDim (⟨2, ![M, N]⟩ : Shape) ![0, 1] h2 (broadcastInDim (⟨2, ![1, N]⟩ : Shape) ![1] h1 b) (ix2 r c)))
      (broadcastInDim (⟨2, ![M, N]⟩ : Shape) ![] h0 (constant (F := Ideal) (⟨0, ![]⟩ : Shape) .f32 0x00000000#32) (ix2 r c)) = _
  rw [hostBiasRow_ix2, hostZeros_ix2, Ideal.addf_def, Ideal.maximumf_def]

/-- The host's dense layer x · w + bias at (r, c). -/
theorem hostAffine_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    addf (Host.dotGeneral d prec x w) (broadcastInDim (⟨2, ![M, N]⟩ : Shape) ![0, 1] h2 (broadcastInDim (⟨2, ![1, N]⟩ : Shape) ![1] h1 b)) (ix2 r c)
      = (∑ k : Fin K, (x (ix2 r k) : EReal) * (w (ix2 k c) : EReal)) + (b (ix1 c) : EReal) := by
  show FloatOps.addf (Host.dotGeneral d prec x w (ix2 r c)) (broadcastInDim (⟨2, ![M, N]⟩ : Shape) ![0, 1] h2 (broadcastInDim (⟨2, ![1, N]⟩ : Shape) ![1] h1 b) (ix2 r c)) = _
  rw [hostDot_ix2 hd, hostBiasRow_ix2, Ideal.addf_def]

/-- The host's dense layer with relu, max(x · w + bias, 0), at (r, c). -/
theorem hostAffineRelu_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf (Host.dotGeneral d prec x w) (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((∑ k : Fin K, (x (ix2 r k) : EReal) * (w (ix2 k c) : EReal)) + (b (ix1 c) : EReal)) 0 := by
  show FloatOps.maximumf (addf (Host.dotGeneral d prec x w) (broadcastInDim (⟨2, ![M, N]⟩ : Shape) ![0, 1] h2 (broadcastInDim (⟨2, ![1, N]⟩ : Shape) ![1] h1 b)) (ix2 r c))
      (broadcastInDim (⟨2, ![M, N]⟩ : Shape) ![] h0 (constant (F := Ideal) (⟨0, ![]⟩ : Shape) .f32 0x00000000#32) (ix2 r c)) = _
  rw [hostAffine_ix2 hd, hostZeros_ix2, Ideal.maximumf_def]

end Idealize.ShloMosaic.ValueIdx

end
-- ==== Proof.LibRowBlocks.lean ====
/-
  Row blocks of a product and of a bias row, at the extended reals.

  For arrays read as functions of a (row, column) index into the extended reals:

    mm x w (p, q)      = Σ_k x (p, k) · w (k, q)          -- an M x K by K x N product
    addRow  a b (p, q) = a (p, q) + b (0, q)               -- a 1 x N row added to every row
    reluRow a b (p, q) = max (a (p, q) + b (0, q)) 0       -- the same, then the maximum with zero

  and, for a computation that works on the rows in blocks: if what is computed on a block of Mb rows is the product (or
  the pointwise formula) of the blocks it loaded, each loaded block being its array read at rows o .. o + Mb (all
  columns; the second operand of a product read whole), then the result block is the whole-array function read at the
  same rows (blk_mm, blk_row).  The blocks' positions enter only through the coordinates of their embeddings, so the
  lemmas serve any row-tiled pipeline: instantiate the embeddings at the windows' blocks and discharge the six coordinate
  facts by arithmetic.
-/
import Idealize.ShloMosaic.PureOps.Ideal
import Idealize.ShloMosaic.Lib.ValueIdx

noncomputable section

open scoped BigOperators

namespace Idealize.ShloMosaic.ValueIdx

open Idealize.ShloMosaic

/-- The product of an M x K array with a K x N array: entry (p, q) is the sum over the inner position. -/
def mm (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 x N row added to every row of an M x N array. -/
def addRow (M N : ℕ) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A 1 x N row added to every row of an M x N array, then the maximum with zero. -/
def reluRow (M N : ℕ) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem mm_ix2 (M K N : ℕ) (x w) (p : Fin M) (q : Fin N) : mm M K N x w (ix2 p q) = ∑ k : Fin K, x (ix2 p k) * w (ix2 k q) := rfl
theorem addRow_ix2 (M N : ℕ) (a b) (p : Fin M) (q : Fin N) : addRow M N a b (ix2 p q) = a (ix2 p q) + b (ix2 (0 : Fin 1) q) := rfl
theorem reluRow_ix2 (M N : ℕ) (a b) (p : Fin M) (q : Fin N) : reluRow M N a b (ix2 p q) = max (a (ix2 p q) + b (ix2 (0 : Fin 1) q)) 0 := rfl

/-! ## A block of rows is the block of the whole-array function

  A region cuts the rows into blocks; point t works on rows o .. o + Mb of its arrays (o the block's first row), all
  columns.  If what the body computes on the block is the product (or the bias formula) of the blocks it loaded, and each
  loaded block is its array read at the block's rows, then the result block is the whole-array product (or bias formula)
  read at the block's rows.  The blocks' positions enter only through the coordinates of their embeddings. -/

theorem hz2 : (![0, 0] : Fin 2 → Nat) = fun _ => 0 := funext fun a => by fin_cases a <;> rfl

/-- A product block: rows o .. o + Mb of x · w are (rows o .. o + Mb of x) · w. -/
theorem blk_mm {Mb M K N : ℕ} (pay : (⟨2, ![Mb, N]⟩ : Shape).Idx → EReal)
    (x0 : (⟨2, ![Mb, K]⟩ : Shape).Idx → EReal) (x1 : (⟨2, ![K, N]⟩ : Shape).Idx → EReal)
    (hpay : ∀ (p : Fin Mb) (q : Fin N), pay (ix2 p q) = ∑ k : Fin K, x0 (ix2 p k) * x1 (ix2 k q))
    (A0 : (⟨2, ![M, K]⟩ : Shape).Idx → EReal) (A1 : (⟨2, ![K, N]⟩ : Shape).Idx → EReal)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : (⟨2, ![Mb, N]⟩ : Shape).Idx) : pay j = mm M K N A0 A1 (e2 j) := by
  obtain ⟨p, q, rfl⟩ : ∃ (p : Fin Mb) (q : Fin N), j = ix2 p q := ⟨j 0, j 1, eq_ix2 j⟩
  rw [hpay]
  show _ = ∑ k : Fin K, A0 (ix2 ((e2 (ix2 p q)) 0) k) * A1 (ix2 k ((e2 (ix2 p q)) 1))
  refine Finset.sum_congr rfl fun k _ => ?_
  rw [hx0, hx1]
  have a0 : e0 (ix2 p k) = ix2 ((e2 (ix2 p q)) 0) k := funext fun a => Fin.ext (by
    match a with
    | ⟨0, _⟩ => exact (h00 (ix2 p k)).trans (h20 (ix2 p q)).symm
    | ⟨1, _⟩ => exact h01 (ix2 p k))
  have a1 : e1 (ix2 k q) = ix2 k ((e2 (ix2 p q)) 1) := funext fun a => Fin.ext (by
    match a with
    | ⟨0, _⟩ => exact h10 (ix2 k q)
    | ⟨1, _⟩ => exact (h11 (ix2 k q)).trans (h21 (ix2 p q)).symm)
  rw [a0, a1]
  rfl

/-- A bias-row block: on rows o .. o + Mb, a pointwise f of the array's entry and the row's entry in that column. -/
theorem blk_row {Mb M N : ℕ} (f : EReal → EReal → EReal) (pay : (⟨2, ![Mb, N]⟩ : Shape).Idx → EReal)
    (x0 : (⟨2, ![Mb, N]⟩ : Shape).Idx → EReal) (x1 : (⟨2, ![1, N]⟩ : Shape).Idx → EReal)
    (hpay : ∀ (p : Fin Mb) (q : Fin N), pay (ix2 p q) = f (x0 (ix2 p q)) (x1 (ix2 (0 : Fin 1) q)))
    (A0 : (⟨2, ![M, N]⟩ : Shape).Idx → EReal) (A1 : (⟨2, ![1, N]⟩ : Shape).Idx → EReal)
    (e0 : (⟨2, ![Mb, N]⟩ : Shape).Idx → (⟨2, ![M, N]⟩ : Shape).Idx)
    (e1 : (⟨2, ![1, N]⟩ : Shape).Idx → (⟨2, ![1, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y))
    (h0 : ∀ y (a : Fin 2), ((e0 y) a).val = ((e2 y) a).val)
    (h11 : ∀ y, ((e1 y) 1).val = (y 1).val) (h21 : ∀ y, ((e2 y) 1).val = (y 1).val)
    (j : (⟨2, ![Mb, N]⟩ : Shape).Idx) : pay j = f (A0 (e2 j)) (A1 (ix2 (0 : Fin 1) ((e2 j) 1))) := by
  obtain ⟨p, q, rfl⟩ : ∃ (p : Fin Mb) (q : Fin N), j = ix2 p q := ⟨j 0, j 1, eq_ix2 j⟩
  rw [hpay, hx0, hx1]
  have a0 : e0 (ix2 p q) = e2 (ix2 p q) := funext fun a => Fin.ext (h0 (ix2 p q) a)
  have a1 : e1 (ix2 (0 : Fin 1) q) = ix2 (0 : Fin 1) ((e2 (ix2 p q)) 1) := funext fun a => Fin.ext (by
    match a with
    | ⟨0, _⟩ =>
      show ((e1 (ix2 (0 : Fin 1) q)) 0).val = 0
      exact Nat.lt_one_iff.mp ((e1 (ix2 (0 : Fin 1) q)) 0).isLt
    | ⟨1, _⟩ => exact (h11 (ix2 (0 : Fin 1) q)).trans (h21 (ix2 p q)).symm)
  rw [a0, a1]
  rfl

end Idealize.ShloMosaic.ValueIdx

end
-- ==== Proof.Dense.lean ====
/-
  The two dense pieces of one graph-convolution layer, read at a row p and a column q, at the extended reals.

  A layer is  h ↦ act (A (h · W) + b):  a product with the weights, an aggregation A over the edges (shared by the
  two programs and never opened here), a bias row added to every row, and for all layers but the last a maximum
  with zero.  The two dense pieces are

    mm x w (p, q)      = Σ_k x (p, k) · w (k, q)          -- the product
    reluRow a b (p, q) = max (a (p, q) + b (0, q)) 0       -- bias row and relu
    addRow  a b (p, q) = a (p, q) + b (0, q)               -- bias row alone (the last layer)

  (stated with their row-block lemmas in the row-blocks module) and this module shows that what the kernel's two bodies
  compute on a block of rows is these, index by index:
  a matrix-unit product of the two operands, each rounded to bf16 on the way (the identity at the extended reals),
  into a zero accumulator, is the finite sum; and a [1, N] row broadcast down the rows, added, then compared with a
  zero splat, is the pointwise formula.
-/
import proofs.«164061_j20761871909627_1_alg».proof.Proof.Gen.KernelIdeal.Skeleton
import proofs.«164061_j20761871909627_1_alg».proof.Proof.LibHostDense
import proofs.«164061_j20761871909627_1_alg».proof.Proof.LibRowBlocks
import Idealize.ShloMosaic.Lib.ValueLayout
import Idealize.ShloMosaic.Lib.Pipeline.Value

noncomputable section

open scoped BigOperators

namespace Cert.Gcn

open Idealize.ShloMosaic Idealize.ShloMosaic.ValueIdx Cert.KernelIdeal Cert.KernelIdeal.Gen

/-! ## The three products' dimension numbers are those of a plain product -/

theorem plain_500_128 : PlainDot (M := 5000) (K := 500) (N := 128) dot_S5000x500_S500x128_S5000x128_1_0_0_1_n_n where
  rank := rfl
  size := rfl
  l0 := fun _ _ => rfl
  l1 := fun j q => DotDims.lhsIdx_val_of_single dot_S5000x500_S500x128_S5000x128_1_0_0_1_n_n (cl := 1) rfl j q
  r0 := fun j q => DotDims.rhsIdx_val_of_single dot_S5000x500_S500x128_S5000x128_1_0_0_1_n_n (cr := 0) rfl j q
  r1 := fun _ _ => rfl

theorem plain_128_128 : PlainDot (M := 5000) (K := 128) (N := 128) dot_S5000x128_S128x128_S5000x128_1_0_0_1_n_n where
  rank := rfl
  size := rfl
  l0 := fun _ _ => rfl
  l1 := fun j q => DotDims.lhsIdx_val_of_single dot_S5000x128_S128x128_S5000x128_1_0_0_1_n_n (cl := 1) rfl j q
  r0 := fun j q => DotDims.rhsIdx_val_of_single dot_S5000x128_S128x128_S5000x128_1_0_0_1_n_n (cr := 0) rfl j q
  r1 := fun _ _ => rfl

theorem plain_128_3 : PlainDot (M := 5000) (K := 128) (N := 3) dot_S5000x128_S128x3_S5000x3_1_0_0_1_n_n where
  rank := rfl
  size := rfl
  l0 := fun _ _ => rfl
  l1 := fun j q => DotDims.lhsIdx_val_of_single dot_S5000x128_S128x3_S5000x3_1_0_0_1_n_n (cl := 1) rfl j q
  r0 := fun j q => DotDims.rhsIdx_val_of_single dot_S5000x128_S128x3_S5000x3_1_0_0_1_n_n (cr := 0) rfl j q
  r1 := fun _ _ => rfl

/-! ## The product bodies at (p, q) -/

/-- The first layer's product on a block of 5000 rows: 500 inner positions. -/
theorem k0_pay_at (x0 : Vec Ideal S5000x500 .f32) (x1 : Vec Ideal S500x128 .f32) (p : Fin 5000) (q : Fin 128) :
    (k0_pay1 (F := Ideal) x0 x1 (ix2 p q) : EReal) = ∑ k : Fin 500, (x0 (ix2 p k) : EReal) * (x1 (ix2 k q) : EReal) := by
  unfold k0_pay1
  exact matmul_zero_ix2_any plain_500_128 none (truncf .bf16 x0 bitsLt_bf16_f32) (truncf .bf16 x1 bitsLt_bf16_f32) p q

/-- A middle layer's product on a block of 5000 rows: 128 inner positions (the block is first recast to its own shape). -/
theorem k2_pay_at (x0 : Vec Ideal S5000x128 .f32) (x1 : Vec Ideal S128x128 .f32) (p : Fin 5000) (q : Fin 128) :
    (k2_pay1 (F := Ideal) x0 x1 (ix2 p q) : EReal) = ∑ k : Fin 128, (x0 (ix2 p k) : EReal) * (x1 (ix2 k q) : EReal) := by
  unfold k2_pay1
  rw [shapeCast_self]
  exact matmul_zero_ix2_any plain_128_128 none (truncf .bf16 x0 bitsLt_bf16_f32) (truncf .bf16 x1 bitsLt_bf16_f32) p q
theorem k4_pay_at (x0 : Vec Ideal S5000x128 .f32) (x1 : Vec Ideal S128x128 .f32) (p : Fin 5000) (q : Fin 128) :
    (k4_pay1 (F := Ideal) x0 x1 (ix2 p q) : EReal) = ∑ k : Fin 128, (x0 (ix2 p k) : EReal) * (x1 (ix2 k q) : EReal) := by
  unfold k4_pay1
  rw [shapeCast_self]
  exact matmul_zero_ix2_any plain_128_128 none (truncf .bf16 x0 bitsLt_bf16_f32) (truncf .bf16 x1 bitsLt_bf16_f32) p q
theorem k6_pay_at (x0 : Vec Ideal S5000x128 .f32) (x1 : Vec Ideal S128x128 .f32) (p : Fin 5000) (q : Fin 128) :
    (k6_pay1 (F := Ideal) x0 x1 (ix2 p q) : EReal) = ∑ k : Fin 128, (x0 (ix2 p k) : EReal) * (x1 (ix2 k q) : EReal) := by
  unfold k6_pay1
  rw [shapeCast_self]
  exact matmul_zero_ix2_any plain_128_128 none (truncf .bf16 x0 bitsLt_bf16_f32) (truncf .bf16 x1 bitsLt_bf16_f32) p q

/-- The last layer's product on a block of 5000 rows: 128 inner positions, 3 columns. -/
theorem k8_pay_at (x0 : Vec Ideal S5000x128 .f32) (x1 : Vec Ideal S128x3 .f32) (p : Fin 5000) (q : Fin 3) :
    (k8_pay1 (F := Ideal) x0 x1 (ix2 p q) : EReal) = ∑ k : Fin 128, (x0 (ix2 p k) : EReal) * (x1 (ix2 k q) : EReal) := by
  unfold k8_pay1
  rw [shapeCast_self]
  exact matmul_zero_ix2_any plain_128_3 none (truncf .bf16 x0 bitsLt_bf16_f32) (truncf .bf16 x1 bitsLt_bf16_f32) p q

/-! ## The bias bodies at (p, q) -/

/-- Bias row and relu on a block of 5000 rows of 128. -/
theorem biasRelu_at (x0 : Vec Ideal S5000x128 .f32) (x1 : Vec Ideal S1x128 .f32) (p : Fin 5000) (q : Fin 128) :
    (FloatOps.maximumf (FloatOps.addf (shapeCast S5000x128 x0 shapeCasts_S5000x128_S5000x128 (ix2 p q))
        (broadcastTo S5000x128 (shapeCast S1x128 x1 shapeCasts_S1x128_S1x128) broadcasts_S1x128_S5000x128 (ix2 p q)))
        (FloatOps.ofBits (F := Ideal) .f32 0x00000000#32) : EReal)
      = max ((x0 (ix2 p q) : EReal) + (x1 (ix2 (0 : Fin 1) q) : EReal)) 0 := by
  rw [shapeCast_self, shapeCast_self, broadcastTo_1b_ab_apply, Ideal.maximumf_def, Ideal.addf_def, Ideal.ofBits_def, Ideal.ofBits_zero_f32]

theorem k1_pay_at (x0 : Vec Ideal S5000x128 .f32) (x1 : Vec Ideal S1x128 .f32) (p : Fin 5000) (q : Fin 128) :
    (k1_pay1 (F := Ideal) x0 x1 (ix2 p q) : EReal) = max ((x0 (ix2 p q) : EReal) + (x1 (ix2 (0 : Fin 1) q) : EReal)) 0 :=
  biasRelu_at x0 x1 p q
theorem k3_pay_at (x0 : Vec Ideal S5000x128 .f32) (x1 : Vec Ideal S1x128 .f32) (p : Fin 5000) (q : Fin 128) :
    (k3_pay1 (F := Ideal) x0 x1 (ix2 p q) : EReal) = max ((x0 (ix2 p q) : EReal) + (x1 (ix2 (0 : Fin 1) q) : EReal)) 0 :=
  biasRelu_at x0 x1 p q
theorem k5_pay_at (x0 : Vec Ideal S5000x128 .f32) (x1 : Vec Ideal S1x128 .f32) (p : Fin 5000) (q : Fin 128) :
    (k5_pay1 (F := Ideal) x0 x1 (ix2 p q) : EReal) = max ((x0 (ix2 p q) : EReal) + (x1 (ix2 (0 : Fin 1) q) : EReal)) 0 :=
  biasRelu_at x0 x1 p q
theorem k7_pay_at (x0 : Vec Ideal S5000x128 .f32) (x1 : Vec Ideal S1x128 .f32) (p : Fin 5000) (q : Fin 128) :
    (k7_pay1 (F := Ideal) x0 x1 (ix2 p q) : EReal) = max ((x0 (ix2 p q) : EReal) + (x1 (ix2 (0 : Fin 1) q) : EReal)) 0 :=
  biasRelu_at x0 x1 p q

/-- The last layer's bias row, no relu, on a block of 5000 rows of 3. -/
theorem k9_pay_at (x0 : Vec Ideal S5000x3 .f32) (x1 : Vec Ideal S1x3 .f32) (p : Fin 5000) (q : Fin 3) :
    (k9_pay1 (F := Ideal) x0 x1 (ix2 p q) : EReal) = (x0 (ix2 p q) : EReal) + (x1 (ix2 (0 : Fin 1) q) : EReal) := by
  show (FloatOps.addf (F := Ideal) (φ := .f32) (shapeCast S5000x3 x0 shapeCasts_S5000x3_S5000x3 (ix2 p q))
      (broadcastTo S5000x3 (shapeCast S1x3 x1 shapeCasts_S1x3_S1x3) broadcasts_S1x3_S5000x3 (ix2 p q)) : EReal) = _
  rw [shapeCast_self, shapeCast_self, broadcastTo_1b_ab_apply, Ideal.addf_def]

end Cert.Gcn

end
-- ==== Proof.Net.lean ====
/-
  The network both programs compute, as one function of the twelve arguments, at the extended reals.

  With A the aggregation over the self-looped, symmetrically normalised edge list e (gather row src, scale by the edge's
  weight, add into row dst), a layer is  h ↦ max (A (h · W) + b, 0)  and the last one  h ↦ A (h · W) + b:

    net x e W1 b1 … W5 b5 = A (relu-layer⁴ x · W5) + b5.

  The products and the bias rows are the index-by-index functions mm, reluRow, addRow; A is the host's own gather,
  multiply and scatter-add, left as they stand.
-/
import proofs.«164061_j20761871909627_1_alg».proof.Proof.Graph
import proofs.«164061_j20761871909627_1_alg».proof.Proof.Dense

noncomputable section

namespace Cert.Gcn

open Idealize.ShloMosaic Idealize.ShloMosaic.ValueIdx Cert.KernelIdeal Cert.KernelIdeal.Gen

/-- A bias vector of length 128 as one row. -/
def row128 (b : (⟨S128, .f32⟩ : BufTy).Contents (Elt Ideal)) : (⟨2, ![1, 128]⟩ : Shape).Idx → EReal := shapeCast S1x128 b shapeCasts_S128_S1x128
/-- A bias vector of length 3 as one row. -/
def row3 (b : (⟨S3, .f32⟩ : BufTy).Contents (Elt Ideal)) : (⟨2, ![1, 3]⟩ : Shape).Idx → EReal := shapeCast S1x3 b shapeCasts_S3_S1x3

/-- A layer with relu, from K features to 128: max (A (h · w) + b, 0). -/
def layer (K : ℕ) (e : (⟨S2x1600000, .i32⟩ : BufTy).Contents (Elt Ideal)) (h : (⟨2, ![100000, K]⟩ : Shape).Idx → EReal)
    (w : (⟨2, ![K, 128]⟩ : Shape).Idx → EReal) (b : (⟨S128, .f32⟩ : BufTy).Contents (Elt Ideal)) : (⟨2, ![100000, 128]⟩ : Shape).Idx → EReal :=
  reluRow 100000 128 (agg128 (srcOf e) (dstOf e) (normOf e) (mm 100000 K 128 h w)) (row128 b)

/-- The last layer, from 128 features to 3, no relu: A (h · w) + b. -/
def lastLayer (e : (⟨S2x1600000, .i32⟩ : BufTy).Contents (Elt Ideal)) (h : (⟨2, ![100000, 128]⟩ : Shape).Idx → EReal)
    (w : (⟨2, ![128, 3]⟩ : Shape).Idx → EReal) (b : (⟨S3, .f32⟩ : BufTy).Contents (Elt Ideal)) : (⟨2, ![100000, 3]⟩ : Shape).Idx → EReal :=
  addRow 100000 3 (agg3 (srcOf e) (dstOf e) (normOf e) (mm 100000 128 3 h w)) (row3 b)

/-- The five-layer network. -/
def net (x : (⟨2, ![100000, 500]⟩ : Shape).Idx → EReal) (e : (⟨S2x1600000, .i32⟩ : BufTy).Contents (Elt Ideal))
    (w1 : (⟨2, ![500, 128]⟩ : Shape).Idx → EReal) (b1 : (⟨S128, .f32⟩ : BufTy).Contents (Elt Ideal))
    (w2 : (⟨2, ![128, 128]⟩ : Shape).Idx → EReal) (b2 : (⟨S128, .f32⟩ : BufTy).Contents (Elt Ideal))
    (w3 : (⟨2, ![128, 128]⟩ : Shape).Idx → EReal) (b3 : (⟨S128, .f32⟩ : BufTy).Contents (Elt Ideal))
    (w4 : (⟨2, ![128, 128]⟩ : Shape).Idx → EReal) (b4 : (⟨S128, .f32⟩ : BufTy).Contents (Elt Ideal))
    (w5 : (⟨2, ![128, 3]⟩ : Shape).Idx → EReal) (b5 : (⟨S3, .f32⟩ : BufTy).Contents (Elt Ideal)) : (⟨2, ![100000, 3]⟩ : Shape).Idx → EReal :=
  lastLayer e (layer 128 e (layer 128 e (layer 128 e (layer 500 e x w1 b1) w2 b2) w3 b3) w4 b4) w5 b5

end Cert.Gcn

end
-- ==== Proof.KernelRun.lean ====
/-
  The idealized kernel's run with its result named.

  The program is ten pipelined regions among stretches of host operations.  From any memory with zero counters every weakly
  fair execution terminates without a fault, and in the final state each TensorCore holds, in every unscoped buffer, the
  contents the fold through the segments leaves there (W18): a host stretch rewrites the buffers its operations write, a
  region rewrites its output array by its points' write-backs, and every other buffer is carried along.  In particular the
  result buffer holds W18 at the result, and each argument holds what it was launched with.
-/
import proofs.«164061_j20761871909627_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents W18 there,
    and the twelve arguments end as launched. -/
theorem run_result : θ_run defs (onTc (τ := τ) (main (F := F))) ⟨m, fun _ => 0, ρ⟩ (fun r => ∀ c : Dev nD,
      r.2.mem ((c.tc : Thread nD τ).loc main_v107) = W18 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v107 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.KernelIdeal.ResultRun

end
-- ==== Proof.Region0.lean ====
/-
  Region 0: the product of layer 1, h · W, row block by row block.

  The grid has 20 points; point t loads rows 5000 t .. 5000 t + 5000 of h (all 500 columns) and the whole of W, and
  writes back rows 5000 t .. 5000 t + 5000 of the result.  Each written block is that block of the whole product
  mm h W, and the 20 blocks tile the 100000 rows, so the result array ends holding mm h W.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the weights at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t
      = ((cfg0.win 2).blk t).view.read (Elt Ideal) (mm 100000 500 128 (V c main_arg0) (V c main_arg2)) := by
  show (cfg0.win 2).cut (grid0.coords t) ((dat0 V c).after 2 t) = _
  rw [after0_2]
  unfold out0_2
  rw [View.canon_unit_zero hz2]
  simp only [View.ld_unit_zero (S := S5000x500) hz2, View.ld_unit_zero (S := S500x128) hz2]
  obtain ⟨e00, e01, e10, e11, e20, e21⟩ := idx0 t
  funext j
  exact blk_mm (Mb := 5000) (M := 100000) (K := 500) (N := 128)
    (k0_pay1 (iblk0 V c 0 t) (iblk0 V c 1 t)) (iblk0 V c 0 t) (iblk0 V c 1 t)
    (k0_pay_at (iblk0 V c 0 t) (iblk0 V c 1 t)) (V c main_arg0) (V c main_arg2)
    ((cfg0.win 0).blk t).view.emb ((cfg0.win 1).blk t).view.emb ((cfg0.win 2).blk t).view.emb
    (fun y => rfl) (fun y => rfl) (t.val * 5000)
    (fun y => by show win0_0.index t (0 : Fin 2) * 5000 + 1 * (y 0).val = t.val * 5000 + (y 0).val; omega)
    (fun y => by show win0_0.index t (1 : Fin 2) * 500 + 1 * (y 1).val = (y 1).val; omega)
    (fun y => by show win0_1.index t (0 : Fin 2) * 500 + 1 * (y 0).val = (y 0).val; omega)
    (fun y => by show win0_1.index t (1 : Fin 2) * 128 + 1 * (y 1).val = (y 1).val; omega)
    (fun y => by show win0_2.index t (0 : Fin 2) * 5000 + 1 * (y 0).val = t.val * 5000 + (y 0).val; omega)
    (fun y => by show win0_2.index t (1 : Fin 2) * 128 + 1 * (y 1).val = (y 1).val; omega)
    j

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Row r is in the block of point r / 5000: the blocks tile the array. -/
theorem cover0 (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  have ht : (i 0).val / 5000 < grid0.N := by omega
  obtain ⟨e00, e01, e10, e11, e20, e21⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e : win0_2.index ⟨(i 0).val / 5000, ht⟩ (0 : Fin 2) = (i 0).val / 5000 := e20
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The result array after the region: the whole product of the two arrays the region found. -/
theorem final0 (c : Dev nD) :
    (dat0 V c).arrAt 2 cfg0.N = mm 100000 500 128 (V c main_arg0) (V c main_arg2) :=
  (dat0 V c).arrAt_eq_of_cover 2 _ (fun t _ => flushed0 V c t) cover0

end Cert.Gcn

end
-- ==== Proof.Region1.lean ====
/-
  Region 1: the bias of layer 1 and its relu, row block by row block.

  The grid has 20 points; point t loads rows 5000 t .. 5000 t + 5000 of the aggregated array a and the one bias row b,
  and writes back max (a + b, 0) on those rows, b's entry taken in the column.  Each written block is that block of the
  whole-array function reluRow a b, and the 20 blocks tile the 100000 rows, so the result array ends holding reluRow a b.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the bias row at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array bias formula. -/
theorem flushed1 (c : Dev nD) (t : Fin cfg1.N) :
    (dat1 V c).flushed 2 t
      = ((cfg1.win 2).blk t).view.read (Elt Ideal) (reluRow 100000 128 (V c main_v45) (V c main_v46)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  obtain ⟨e00, e01, e10, e11, e20, e21⟩ := idx1 t
  funext j
  exact blk_row (Mb := 5000) (M := 100000) (N := 128) (fun a b => max (a + b) 0)
    (k1_pay1 (iblk1 V c 0 t) (iblk1 V c 1 t)) (iblk1 V c 0 t) (iblk1 V c 1 t)
    (k1_pay_at (iblk1 V c 0 t) (iblk1 V c 1 t)) (V c main_v45) (V c main_v46)
    ((cfg1.win 0).blk t).view.emb ((cfg1.win 1).blk t).view.emb ((cfg1.win 2).blk t).view.emb
    (fun y => rfl) (fun y => rfl)
    (fun y a => by
      match a with
      | ⟨0, _⟩ => show win1_0.index t (0 : Fin 2) * 5000 + 1 * (y 0).val = win1_2.index t (0 : Fin 2) * 5000 + 1 * (y 0).val; omega
      | ⟨1, _⟩ => show win1_0.index t (1 : Fin 2) * 128 + 1 * (y 1).val = win1_2.index t (1 : Fin 2) * 128 + 1 * (y 1).val; omega)
    (fun y => by show win1_1.index t (1 : Fin 2) * 128 + 1 * (y 1).val = (y 1).val; omega)
    (fun y => by show win1_2.index t (1 : Fin 2) * 128 + 1 * (y 1).val = (y 1).val; omega)
    j

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row r is in the block of point r / 5000: the blocks tile the array. -/
theorem cover1 (i : S100000x128.Idx) :
    ∃ t : Fin cfg1.N, (cfg1.win 2).flush t = true ∧ i ∈ ((cfg1.win 2).blk t).view.set := by
  have hN : grid1.N = 20 := N_1
  have hi0 : (i 0).val < 100000 := (i 0).isLt
  have hi1 : (i 1).val < 128 := (i 1).isLt
  have ht : (i 0).val / 5000 < grid1.N := by omega
  obtain ⟨e00, e01, e10, e11, e20, e21⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e : win1_2.index ⟨(i 0).val / 5000, ht⟩ (0 : Fin 2) = (i 0).val / 5000 := e20
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- The result array after the region: the bias formula of the two arrays the region found. -/
theorem final1 (c : Dev nD) :
    (dat1 V c).arrAt 2 cfg1.N = reluRow 100000 128 (V c main_v45) (V c main_v46) :=
  (dat1 V c).arrAt_eq_of_cover 2 _ (fun t _ => flushed1 V c t) cover1

end Cert.Gcn

end
-- ==== Proof.Region2.lean ====
/-
  Region 2: the product of layer 2, h · W, row block by row block.

  The grid has 20 points; point t loads rows 5000 t .. 5000 t + 5000 of h (all 128 columns) and the whole of W, and
  writes back rows 5000 t .. 5000 t + 5000 of the result.  Each written block is that block of the whole product
  mm h W, and the 20 blocks tile the 100000 rows, so the result array ends holding mm h W.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the weights at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2 (c : Dev nD) (t : Fin cfg2.N) :
    (dat2 V c).flushed 2 t
      = ((cfg2.win 2).blk t).view.read (Elt Ideal) (mm 100000 128 128 (V c main_v47) (V c main_arg4)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e00, e01, e10, e11, e20, e21⟩ := idx2 t
  funext j
  exact blk_mm (Mb := 5000) (M := 100000) (K := 128) (N := 128)
    (k2_pay1 (iblk2 V c 0 t) (iblk2 V c 1 t)) (iblk2 V c 0 t) (iblk2 V c 1 t)
    (k2_pay_at (iblk2 V c 0 t) (iblk2 V c 1 t)) (V c main_v47) (V c main_arg4)
    ((cfg2.win 0).blk t).view.emb ((cfg2.win 1).blk t).view.emb ((cfg2.win 2).blk t).view.emb
    (fun y => rfl) (fun y => rfl) (t.val * 5000)
    (fun y => by show win2_0.index t (0 : Fin 2) * 5000 + 1 * (y 0).val = t.val * 5000 + (y 0).val; omega)
    (fun y => by show win2_0.index t (1 : Fin 2) * 128 + 1 * (y 1).val = (y 1).val; omega)
    (fun y => by show win2_1.index t (0 : Fin 2) * 128 + 1 * (y 0).val = (y 0).val; omega)
    (fun y => by show win2_1.index t (1 : Fin 2) * 128 + 1 * (y 1).val = (y 1).val; omega)
    (fun y => by show win2_2.index t (0 : Fin 2) * 5000 + 1 * (y 0).val = t.val * 5000 + (y 0).val; omega)
    (fun y => by show win2_2.index t (1 : Fin 2) * 128 + 1 * (y 1).val = (y 1).val; omega)
    j

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row r is in the block of point r / 5000: the blocks tile the array. -/
theorem cover2 (i : S100000x128.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 128 := (i 1).isLt
  have ht : (i 0).val / 5000 < grid2.N := by omega
  obtain ⟨e00, e01, e10, e11, e20, e21⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e : win2_2.index ⟨(i 0).val / 5000, ht⟩ (0 : Fin 2) = (i 0).val / 5000 := e20
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The result array after the region: the whole product of the two arrays the region found. -/
theorem final2 (c : Dev nD) :
    (dat2 V c).arrAt 2 cfg2.N = mm 100000 128 128 (V c main_v47) (V c main_arg4) :=
  (dat2 V c).arrAt_eq_of_cover 2 _ (fun t _ => flushed2 V c t) cover2

end Cert.Gcn

end
-- ==== Proof.Region3.lean ====
/-
  Region 3: the bias of layer 2 and its relu, row block by row block.

  The grid has 20 points; point t loads rows 5000 t .. 5000 t + 5000 of the aggregated array a and the one bias row b,
  and writes back max (a + b, 0) on those rows, b's entry taken in the column.  Each written block is that block of the
  whole-array function reluRow a b, and the 20 blocks tile the 100000 rows, so the result array ends holding reluRow a b.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the bias row at block 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array bias formula. -/
theorem flushed3 (c : Dev nD) (t : Fin cfg3.N) :
    (dat3 V c).flushed 2 t
      = ((cfg3.win 2).blk t).view.read (Elt Ideal) (reluRow 100000 128 (V c main_v60) (V c main_v61)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S1x128) hz2]
  obtain ⟨e00, e01, e10, e11, e20, e21⟩ := idx3 t
  funext j
  exact blk_row (Mb := 5000) (M := 100000) (N := 128) (fun a b => max (a + b) 0)
    (k3_pay1 (iblk3 V c 0 t) (iblk3 V c 1 t)) (iblk3 V c 0 t) (iblk3 V c 1 t)
    (k3_pay_at (iblk3 V c 0 t) (iblk3 V c 1 t)) (V c main_v60) (V c main_v61)
    ((cfg3.win 0).blk t).view.emb ((cfg3.win 1).blk t).view.emb ((cfg3.win 2).blk t).view.emb
    (fun y => rfl) (fun y => rfl)
    (fun y a => by
      match a with
      | ⟨0, _⟩ => show win3_0.index t (0 : Fin 2) * 5000 + 1 * (y 0).val = win3_2.index t (0 : Fin 2) * 5000 + 1 * (y 0).val; omega
      | ⟨1, _⟩ => show win3_0.index t (1 : Fin 2) * 128 + 1 * (y 1).val = win3_2.index t (1 : Fin 2) * 128 + 1 * (y 1).val; omega)
    (fun y => by show win3_1.index t (1 : Fin 2) * 128 + 1 * (y 1).val = (y 1).val; omega)
    (fun y => by show win3_2.index t (1 : Fin 2) * 128 + 1 * (y 1).val = (y 1).val; omega)
    j

/-- An index of the result array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v62).slice (win3_2.rect t)).set ↔ _
  rw [View.set_slice_whole, Rect.mem_set_unit]
  exact Iff.rfl

/-- Row r is in the block of point r / 5000: the blocks tile the array. -/
theorem cover3 (i : S100000x128.Idx) :
    ∃ t : Fin cfg3.N, (cfg3.win 2).flush t = true ∧ i ∈ ((cfg3.win 2).blk t).view.set := by
  have hN : grid3.N = 20 := N_3
  have hi0 : (i 0).val < 100000 := (i 0).isLt
  have hi1 : (i 1).val < 128 := (i 1).isLt
  have ht : (i 0).val / 5000 < grid3.N := by omega
  obtain ⟨e00, e01, e10, e11, e20, e21⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    have e : win3_2.index ⟨(i 0).val / 5000, ht⟩ (0 : Fin 2) = (i 0).val / 5000 := e20
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- The result array after the region: the bias formula of the two arrays the region found. -/
theorem final3 (c : Dev nD) :
    (dat3 V c).arrAt 2 cfg3.N = reluRow 100000 128 (V c main_v60) (V c main_v61) :=
  (dat3 V c).arrAt_eq_of_cover 2 _ (fun t _ => flushed3 V c t) cover3

end Cert.Gcn

end
-- ==== Proof.Region4.lean ====
/-
  Region 4: the product of layer 3, h · W, row block by row block.

  The grid has 20 points; point t loads rows 5000 t .. 5000 t + 5000 of h (all 128 columns) and the whole of W, and
  writes back rows 5000 t .. 5000 t + 5000 of the result.  Each written block is that block of the whole product
  mm h W, and the 20 blocks tile the 100000 rows, so the result array ends holding mm h W.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the weights at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed4 (c : Dev nD) (t : Fin cfg4.N) :
    (dat4 V c).flushed 2 t
      = ((cfg4.win 2).blk t).view.read (Elt Ideal) (mm 100000 128 128 (V c main_v62) (V c main_arg6)) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S128x128) hz2]
  obtain ⟨e00, e01, e10, e11, e20, e21⟩ := idx4 t
  funext j
  exact blk_mm (Mb := 5000) (M := 100000) (K := 128) (N := 128)
    (k4_pay1 (iblk4 V c 0 t) (iblk4 V c 1 t)) (iblk4 V c 0 t) (iblk4 V c 1 t)
    (k4_pay_at (iblk4 V c 0 t) (iblk4 V c 1 t)) (V c main_v62) (V c main_arg6)
    ((cfg4.win 0).blk t).view.emb ((cfg4.win 1).blk t).view.emb ((cfg4.win 2).blk t).view.emb
    (fun y => rfl) (fun y => rfl) (t.val * 5000)
    (fun y => by show win4_0.index t (0 : Fin 2) * 5000 + 1 * (y 0).val = t.val * 5000 + (y 0).val; omega)
    (fun y => by show win4_0.index t (1 : Fin 2) * 128 + 1 * (y 1).val = (y 1).val; omega)
    (fun y => by show win4_1.index t (0 : Fin 2) * 128 + 1 * (y 0).val = (y 0).val; omega)
    (fun y => by show win4_1.index t (1 : Fin 2) * 128 + 1 * (y 1).val = (y 1).val; omega)
    (fun y => by show win4_2.index t (0 : Fin 2) * 5000 + 1 * (y 0).val = t.val * 5000 + (y 0).val; omega)
    (fun y => by show win4_2.index t (1 : Fin 2) * 128 + 1 * (y 1).val = (y 1).val; omega)
    j

/-- An index of the result array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v63).slice (win4_2.rect t)).set ↔ _
  rw [View.set_slice_whole, Rect.mem_set_unit]
  exact Iff.rfl

/-- Row r is in the block of point r / 5000: the blocks tile the array. -/
theorem cover4 (i : S100000x128.Idx) :
    ∃ t : Fin cfg4.N, (cfg4.win 2).flush t = true ∧ i ∈ ((cfg4.win 2).blk t).view.set := by
  have hN : grid4.N = 20 := N_4
  have hi0 : (i 0).val < 100000 := (i 0).isLt
  have hi1 : (i 1).val < 128 := (i 1).isLt
  have ht : (i 0).val / 5000 < grid4.N := by omega
  obtain ⟨e00, e01, e10, e11, e20, e21⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    have e : win4_2.index ⟨(i 0).val / 5000, ht⟩ (0 : Fin 2) = (i 0).val / 5000 := e20
    omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    omega

/-- The result array after the region: the whole product of the two arrays the region found. -/
theorem final4 (c : Dev nD) :
    (dat4 V c).arrAt 2 cfg4.N = mm 100000 128 128 (V c main_v62) (V c main_arg6) :=
  (dat4 V c).arrAt_eq_of_cover 2 _ (fun t _ => flushed4 V c t) cover4

end Cert.Gcn

end
-- ==== Proof.Region5.lean ====
/-
  Region 5: the bias of layer 3 and its relu, row block by row block.

  The grid has 20 points; point t loads rows 5000 t .. 5000 t + 5000 of the aggregated array a and the one bias row b,
  and writes back max (a + b, 0) on those rows, b's entry taken in the column.  Each written block is that block of the
  whole-array function reluRow a b, and the 20 blocks tile the 100000 rows, so the result array ends holding reluRow a b.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the bias row at block 0. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array bias formula. -/
theorem flushed5 (c : Dev nD) (t : Fin cfg5.N) :
    (dat5 V c).flushed 2 t
      = ((cfg5.win 2).blk t).view.read (Elt Ideal) (reluRow 100000 128 (V c main_v75) (V c main_v76)) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S1x128) hz2]
  obtain ⟨e00, e01, e10, e11, e20, e21⟩ := idx5 t
  funext j
  exact blk_row (Mb := 5000) (M := 100000) (N := 128) (fun a b => max (a + b) 0)
    (k5_pay1 (iblk5 V c 0 t) (iblk5 V c 1 t)) (iblk5 V c 0 t) (iblk5 V c 1 t)
    (k5_pay_at (iblk5 V c 0 t) (iblk5 V c 1 t)) (V c main_v75) (V c main_v76)
    ((cfg5.win 0).blk t).view.emb ((cfg5.win 1).blk t).view.emb ((cfg5.win 2).blk t).view.emb
    (fun y => rfl) (fun y => rfl)
    (fun y a => by
      match a with
      | ⟨0, _⟩ => show win5_0.index t (0 : Fin 2) * 5000 + 1 * (y 0).val = win5_2.index t (0 : Fin 2) * 5000 + 1 * (y 0).val; omega
      | ⟨1, _⟩ => show win5_0.index t (1 : Fin 2) * 128 + 1 * (y 1).val = win5_2.index t (1 : Fin 2) * 128 + 1 * (y 1).val; omega)
    (fun y => by show win5_1.index t (1 : Fin 2) * 128 + 1 * (y 1).val = (y 1).val; omega)
    (fun y => by show win5_2.index t (1 : Fin 2) * 128 + 1 * (y 1).val = (y 1).val; omega)
    j

/-- An index of the result array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- Row r is in the block of point r / 5000: the blocks tile the array. -/
theorem cover5 (i : S100000x128.Idx) :
    ∃ t : Fin cfg5.N, (cfg5.win 2).flush t = true ∧ i ∈ ((cfg5.win 2).blk t).view.set := by
  have hN : grid5.N = 20 := N_5
  have hi0 : (i 0).val < 100000 := (i 0).isLt
  have hi1 : (i 1).val < 128 := (i 1).isLt
  have ht : (i 0).val / 5000 < grid5.N := by omega
  obtain ⟨e00, e01, e10, e11, e20, e21⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    have e : win5_2.index ⟨(i 0).val / 5000, ht⟩ (0 : Fin 2) = (i 0).val / 5000 := e20
    omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    omega

/-- The result array after the region: the bias formula of the two arrays the region found. -/
theorem final5 (c : Dev nD) :
    (dat5 V c).arrAt 2 cfg5.N = reluRow 100000 128 (V c main_v75) (V c main_v76) :=
  (dat5 V c).arrAt_eq_of_cover 2 _ (fun t _ => flushed5 V c t) cover5

end Cert.Gcn

end
-- ==== Proof.Region6.lean ====
/-
  Region 6: the product of layer 4, h · W, row block by row block.

  The grid has 20 points; point t loads rows 5000 t .. 5000 t + 5000 of h (all 128 columns) and the whole of W, and
  writes back rows 5000 t .. 5000 t + 5000 of the result.  Each written block is that block of the whole product
  mm h W, and the 20 blocks tile the 100000 rows, so the result array ends holding mm h W.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the weights at block 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushed6 (c : Dev nD) (t : Fin cfg6.N) :
    (dat6 V c).flushed 2 t
      = ((cfg6.win 2).blk t).view.read (Elt Ideal) (mm 100000 128 128 (V c main_v77) (V c main_arg8)) := by
  show (cfg6.win 2).cut (grid6.coords t) ((dat6 V c).after 2 t) = _
  rw [after6_2]
  unfold out6_2
  rw [View.canon_unit_zero hz2]
  simp only [View.ld_unit_zero (S := S5000x128) hz2, View.ld_unit_zero (S := S128x128) hz2]
  obtain ⟨e00, e01, e10, e11, e20, e21⟩ := idx6 t
  funext j
  exact blk_mm (Mb := 5000) (M := 100000) (K := 128) (N := 128)
    (k6_pay1 (iblk6 V c 0 t) (iblk6 V c 1 t)) (iblk6 V c 0 t) (iblk6 V c 1 t)
    (k6_pay_at (iblk6 V c 0 t) (iblk6 V c 1 t)) (V c main_v77) (V c main_arg8)
    ((cfg6.win 0).blk t).view.emb ((cfg6.win 1).blk t).view.emb ((cfg6.win 2).blk t).view.emb
    (fun y => rfl) (fun y => rfl) (t.val * 5000)
    (fun y => by show win6_0.index t (0 : Fin 2) * 5000 + 1 * (y 0).val = t.val * 5000 + (y 0).val; omega)
    (fun y => by show win6_0.index t (1 : Fin 2) * 128 + 1 * (y 1).val = (y 1).val; omega)
    (fun y => by show win6_1.index t (0 : Fin 2) * 128 + 1 * (y 0).val = (y 0).val; omega)
    (fun y => by show win6_1.index t (1 : Fin 2) * 128 + 1 * (y 1).val = (y 1).val; omega)
    (fun y => by show win6_2.index t (0 : Fin 2) * 5000 + 1 * (y 0).val = t.val * 5000 + (y 0).val; omega)
    (fun y => by show win6_2.index t (1 : Fin 2) * 128 + 1 * (y 1).val = (y 1).val; omega)
    j

/-- An index of the result array is in point t's block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v78).slice (win6_2.rect t)).set ↔ _
  rw [View.set_slice_whole, Rect.mem_set_unit]
  exact Iff.rfl

/-- Row r is in the block of point r / 5000: the blocks tile the array. -/
theorem cover6 (i : S100000x128.Idx) :
    ∃ t : Fin cfg6.N, (cfg6.win 2).flush t = true ∧ i ∈ ((cfg6.win 2).blk t).view.set := by
  have hN : grid6.N = 20 := N_6
  have hi0 : (i 0).val < 100000 := (i 0).isLt
  have hi1 : (i 1).val < 128 := (i 1).isLt
  have ht : (i 0).val / 5000 < grid6.N := by omega
  obtain ⟨e00, e01, e10, e11, e20, e21⟩ := idx6 ⟨(i 0).val / 5000, ht⟩
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    have e : win6_2.index ⟨(i 0).val / 5000, ht⟩ (0 : Fin 2) = (i 0).val / 5000 := e20
    omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    omega

/-- The result array after the region: the whole product of the two arrays the region found. -/
theorem final6 (c : Dev nD) :
    (dat6 V c).arrAt 2 cfg6.N = mm 100000 128 128 (V c main_v77) (V c main_arg8) :=
  (dat6 V c).arrAt_eq_of_cover 2 _ (fun t _ => flushed6 V c t) cover6

end Cert.Gcn

end
-- ==== Proof.Region7.lean ====
/-
  Region 7: the bias of layer 4 and its relu, row block by row block.

  The grid has 20 points; point t loads rows 5000 t .. 5000 t + 5000 of the aggregated array a and the one bias row b,
  and writes back max (a + b, 0) on those rows, b's entry taken in the column.  Each written block is that block of the
  whole-array function reluRow a b, and the 20 blocks tile the 100000 rows, so the result array ends holding reluRow a b.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the bias row at block 0. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the whole-array bias formula. -/
theorem flushed7 (c : Dev nD) (t : Fin cfg7.N) :
    (dat7 V c).flushed 2 t
      = ((cfg7.win 2).blk t).view.read (Elt Ideal) (reluRow 100000 128 (V c main_v90) (V c main_v91)) := by
  show (cfg7.win 2).cut (grid7.coords t) ((dat7 V c).after 2 t) = _
  rw [after7_2]
  unfold out7_2
  rw [View.canon_unit_zero hz2]
  simp only [View.ld_unit_zero (S := S5000x128) hz2, View.ld_unit_zero (S := S1x128) hz2]
  obtain ⟨e00, e01, e10, e11, e20, e21⟩ := idx7 t
  funext j
  exact blk_row (Mb := 5000) (M := 100000) (N := 128) (fun a b => max (a + b) 0)
    (k7_pay1 (iblk7 V c 0 t) (iblk7 V c 1 t)) (iblk7 V c 0 t) (iblk7 V c 1 t)
    (k7_pay_at (iblk7 V c 0 t) (iblk7 V c 1 t)) (V c main_v90) (V c main_v91)
    ((cfg7.win 0).blk t).view.emb ((cfg7.win 1).blk t).view.emb ((cfg7.win 2).blk t).view.emb
    (fun y => rfl) (fun y => rfl)
    (fun y a => by
      match a with
      | ⟨0, _⟩ => show win7_0.index t (0 : Fin 2) * 5000 + 1 * (y 0).val = win7_2.index t (0 : Fin 2) * 5000 + 1 * (y 0).val; omega
      | ⟨1, _⟩ => show win7_0.index t (1 : Fin 2) * 128 + 1 * (y 1).val = win7_2.index t (1 : Fin 2) * 128 + 1 * (y 1).val; omega)
    (fun y => by show win7_1.index t (1 : Fin 2) * 128 + 1 * (y 1).val = (y 1).val; omega)
    (fun y => by show win7_2.index t (1 : Fin 2) * 128 + 1 * (y 1).val = (y 1).val; omega)
    j

/-- An index of the result array is in point t's block iff each coordinate is in the block's range on its axis. -/
theorem mem_blk7 (t : Fin cfg7.N) (i : S100000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v92).slice (win7_2.rect t)).set ↔ _
  rw [View.set_slice_whole, Rect.mem_set_unit]
  exact Iff.rfl

/-- Row r is in the block of point r / 5000: the blocks tile the array. -/
theorem cover7 (i : S100000x128.Idx) :
    ∃ t : Fin cfg7.N, (cfg7.win 2).flush t = true ∧ i ∈ ((cfg7.win 2).blk t).view.set := by
  have hN : grid7.N = 20 := N_7
  have hi0 : (i 0).val < 100000 := (i 0).isLt
  have hi1 : (i 1).val < 128 := (i 1).isLt
  have ht : (i 0).val / 5000 < grid7.N := by omega
  obtain ⟨e00, e01, e10, e11, e20, e21⟩ := idx7 ⟨(i 0).val / 5000, ht⟩
  refine ⟨⟨(i 0).val / 5000, ht⟩, flush7_2 _, ?_⟩
  rw [mem_blk7]
  intro a
  match a with
  | ⟨0, _⟩ =>
    show win7_2.index ⟨(i 0).val / 5000, ht⟩ (0 : Fin 2) * 5000 ≤ (i 0).val
      ∧ (i 0).val < win7_2.index ⟨(i 0).val / 5000, ht⟩ (0 : Fin 2) * 5000 + 5000
    have e : win7_2.index ⟨(i 0).val / 5000, ht⟩ (0 : Fin 2) = (i 0).val / 5000 := e20
    omega
  | ⟨1, _⟩ =>
    show win7_2.index ⟨(i 0).val / 5000, ht⟩ (1 : Fin 2) * 128 ≤ (i 1).val
      ∧ (i 1).val < win7_2.index ⟨(i 0).val / 5000, ht⟩ (1 : Fin 2) * 128 + 128
    omega

/-- The result array after the region: the bias formula of the two arrays the region found. -/
theorem final7 (c : Dev nD) :
    (dat7 V c).arrAt 2 cfg7.N = reluRow 100000 128 (V c main_v90) (V c main_v91) :=
  (dat7 V c).arrAt_eq_of_cover 2 _ (fun t _ => flushed7 V c t) cover7

end Cert.Gcn

end
-- ==== Proof.Region8.lean ====
/-
  Region 8: the product of layer 5, h · W, row block by row block.

  The grid has 20 points; point t loads rows 5000 t .. 5000 t + 5000 of h (all 128 columns) and the whole of W, and
  writes back rows 5000 t .. 5000 t + 5000 of the result.  Each written block is that block of the whole product
  mm h W, and the 20 blocks tile the 100000 rows, so the result array ends holding mm h W.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the weights at block 0. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole product. -/
theorem flushed8 (c : Dev nD) (t : Fin cfg8.N) :
    (dat8 V c).flushed 2 t
      = ((cfg8.win 2).blk t).view.read (Elt Ideal) (mm 100000 128 3 (V c main_v92) (V c main_arg10)) := by
  show (cfg8.win 2).cut (grid8.coords t) ((dat8 V c).after 2 t) = _
  rw [after8_2]
  unfold out8_2
  rw [View.canon_unit_zero hz2]
  simp only [View.ld_unit_zero (S := S5000x128) hz2, View.ld_unit_zero (S := S128x3) hz2]
  obtain ⟨e00, e01, e10, e11, e20, e21⟩ := idx8 t
  funext j
  exact blk_mm (Mb := 5000) (M := 100000) (K := 128) (N := 3)
    (k8_pay1 (iblk8 V c 0 t) (iblk8 V c 1 t)) (iblk8 V c 0 t) (iblk8 V c 1 t)
    (k8_pay_at (iblk8 V c 0 t) (iblk8 V c 1 t)) (V c main_v92) (V c main_arg10)
    ((cfg8.win 0).blk t).view.emb ((cfg8.win 1).blk t).view.emb ((cfg8.win 2).blk t).view.emb
    (fun y => rfl) (fun y => rfl) (t.val * 5000)
    (fun y => by show win8_0.index t (0 : Fin 2) * 5000 + 1 * (y 0).val = t.val * 5000 + (y 0).val; omega)
    (fun y => by show win8_0.index t (1 : Fin 2) * 128 + 1 * (y 1).val = (y 1).val; omega)
    (fun y => by show win8_1.index t (0 : Fin 2) * 128 + 1 * (y 0).val = (y 0).val; omega)
    (fun y => by show win8_1.index t (1 : Fin 2) * 3 + 1 * (y 1).val = (y 1).val; omega)
    (fun y => by show win8_2.index t (0 : Fin 2) * 5000 + 1 * (y 0).val = t.val * 5000 + (y 0).val; omega)
    (fun y => by show win8_2.index t (1 : Fin 2) * 3 + 1 * (y 1).val = (y 1).val; omega)
    j

/-- An index of the result array is in point t's block iff each coordinate is in the block's range on its axis. -/
theorem mem_blk8 (t : Fin cfg8.N) (i : S100000x3.Idx) :
    i ∈ ((cfg8.win 2).blk t).view.set ↔ ∀ a : Fin 2, win8_2.index t a * S5000x3.size a ≤ (i a).val
      ∧ (i a).val < win8_2.index t a * S5000x3.size a + S5000x3.size a := by
  show i ∈ ((View.whole main_v93).slice (win8_2.rect t)).set ↔ _
  rw [View.set_slice_whole, Rect.mem_set_unit]
  exact Iff.rfl

/-- Row r is in the block of point r / 5000: the blocks tile the array. -/
theorem cover8 (i : S100000x3.Idx) :
    ∃ t : Fin cfg8.N, (cfg8.win 2).flush t = true ∧ i ∈ ((cfg8.win 2).blk t).view.set := by
  have hN : grid8.N = 20 := N_8
  have hi0 : (i 0).val < 100000 := (i 0).isLt
  have hi1 : (i 1).val < 3 := (i 1).isLt
  have ht : (i 0).val / 5000 < grid8.N := by omega
  obtain ⟨e00, e01, e10, e11, e20, e21⟩ := idx8 ⟨(i 0).val / 5000, ht⟩
  refine ⟨⟨(i 0).val / 5000, ht⟩, flush8_2 _, ?_⟩
  rw [mem_blk8]
  intro a
  match a with
  | ⟨0, _⟩ =>
    show win8_2.index ⟨(i 0).val / 5000, ht⟩ (0 : Fin 2) * 5000 ≤ (i 0).val
      ∧ (i 0).val < win8_2.index ⟨(i 0).val / 5000, ht⟩ (0 : Fin 2) * 5000 + 5000
    have e : win8_2.index ⟨(i 0).val / 5000, ht⟩ (0 : Fin 2) = (i 0).val / 5000 := e20
    omega
  | ⟨1, _⟩ =>
    show win8_2.index ⟨(i 0).val / 5000, ht⟩ (1 : Fin 2) * 3 ≤ (i 1).val
      ∧ (i 1).val < win8_2.index ⟨(i 0).val / 5000, ht⟩ (1 : Fin 2) * 3 + 3
    omega

/-- The result array after the region: the whole product of the two arrays the region found. -/
theorem final8 (c : Dev nD) :
    (dat8 V c).arrAt 2 cfg8.N = mm 100000 128 3 (V c main_v92) (V c main_arg10) :=
  (dat8 V c).arrAt_eq_of_cover 2 _ (fun t _ => flushed8 V c t) cover8

end Cert.Gcn

end
-- ==== Proof.Region9.lean ====
/-
  Region 9: the bias of layer 5 (the last layer: no relu), row block by row block.

  The grid has 20 points; point t loads rows 5000 t .. 5000 t + 5000 of the aggregated array a and the one bias row b,
  and writes back a + b on those rows, b's entry taken in the column.  Each written block is that block of the
  whole-array function addRow a b, and the 20 blocks tile the 100000 rows, so the result array ends holding addRow a b.
-/
import proofs.«164061_j20761871909627_1_alg».proof.Proof.Gen.KernelIdeal.Frame
import proofs.«164061_j20761871909627_1_alg».proof.Proof.Dense

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

-- the TensorCore's buffer contents when the region is entered
variable (V : (c : Dev nD) → (b : Ref sig .tc) → Buf (Elt Ideal) ((c : Thread nD τ).loc b))

/-- Where each window's block sits at point t: the two row-blocked windows at block t, the bias row at block 0. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the whole-array bias formula. -/
theorem flushed9 (c : Dev nD) (t : Fin cfg9.N) :
    (dat9 V c).flushed 2 t
      = ((cfg9.win 2).blk t).view.read (Elt Ideal) (addRow 100000 3 (V c main_v105) (V c main_v106)) := by
  show (cfg9.win 2).cut (grid9.coords t) ((dat9 V c).after 2 t) = _
  rw [after9_2]
  unfold out9_2
  rw [View.canon_unit_zero hz2]
  simp only [View.ld_unit_zero (S := S5000x3) hz2, View.ld_unit_zero (S := S1x3) hz2]
  obtain ⟨e00, e01, e10, e11, e20, e21⟩ := idx9 t
  funext j
  exact blk_row (Mb := 5000) (M := 100000) (N := 3) (fun a b => a + b)
    (k9_pay1 (iblk9 V c 0 t) (iblk9 V c 1 t)) (iblk9 V c 0 t) (iblk9 V c 1 t)
    (k9_pay_at (iblk9 V c 0 t) (iblk9 V c 1 t)) (V c main_v105) (V c main_v106)
    ((cfg9.win 0).blk t).view.emb ((cfg9.win 1).blk t).view.emb ((cfg9.win 2).blk t).view.emb
    (fun y => rfl) (fun y => rfl)
    (fun y a => by
      match a with
      | ⟨0, _⟩ => show win9_0.index t (0 : Fin 2) * 5000 + 1 * (y 0).val = win9_2.index t (0 : Fin 2) * 5000 + 1 * (y 0).val; omega
      | ⟨1, _⟩ => show win9_0.index t (1 : Fin 2) * 3 + 1 * (y 1).val = win9_2.index t (1 : Fin 2) * 3 + 1 * (y 1).val; omega)
    (fun y => by show win9_1.index t (1 : Fin 2) * 3 + 1 * (y 1).val = (y 1).val; omega)
    (fun y => by show win9_2.index t (1 : Fin 2) * 3 + 1 * (y 1).val = (y 1).val; omega)
    j

/-- An index of the result array is in point t's block iff each coordinate is in the block's range on its axis. -/
theorem mem_blk9 (t : Fin cfg9.N) (i : S100000x3.Idx) :
    i ∈ ((cfg9.win 2).blk t).view.set ↔ ∀ a : Fin 2, win9_2.index t a * S5000x3.size a ≤ (i a).val
      ∧ (i a).val < win9_2.index t a * S5000x3.size a + S5000x3.size a := by
  show i ∈ ((View.whole main_v107).slice (win9_2.rect t)).set ↔ _
  rw [View.set_slice_whole, Rect.mem_set_unit]
  exact Iff.rfl

/-- Row r is in the block of point r / 5000: the blocks tile the array. -/
theorem cover9 (i : S100000x3.Idx) :
    ∃ t : Fin cfg9.N, (cfg9.win 2).flush t = true ∧ i ∈ ((cfg9.win 2).blk t).view.set := by
  have hN : grid9.N = 20 := N_9
  have hi0 : (i 0).val < 100000 := (i 0).isLt
  have hi1 : (i 1).val < 3 := (i 1).isLt
  have ht : (i 0).val / 5000 < grid9.N := by omega
  obtain ⟨e00, e01, e10, e11, e20, e21⟩ := idx9 ⟨(i 0).val / 5000, ht⟩
  refine ⟨⟨(i 0).val / 5000, ht⟩, flush9_2 _, ?_⟩
  rw [mem_blk9]
  intro a
  match a with
  | ⟨0, _⟩ =>
    show win9_2.index ⟨(i 0).val / 5000, ht⟩ (0 : Fin 2) * 5000 ≤ (i 0).val
      ∧ (i 0).val < win9_2.index ⟨(i 0).val / 5000, ht⟩ (0 : Fin 2) * 5000 + 5000
    have e : win9_2.index ⟨(i 0).val / 5000, ht⟩ (0 : Fin 2) = (i 0).val / 5000 := e20
    omega
  | ⟨1, _⟩ =>
    show win9_2.index ⟨(i 0).val / 5000, ht⟩ (1 : Fin 2) * 3 ≤ (i 1).val
      ∧ (i 1).val < win9_2.index ⟨(i 0).val / 5000, ht⟩ (1 : Fin 2) * 3 + 3
    omega

/-- The result array after the region: the bias formula of the two arrays the region found. -/
theorem final9 (c : Dev nD) :
    (dat9 V c).arrAt 2 cfg9.N = addRow 100000 3 (V c main_v105) (V c main_v106) :=
  (dat9 V c).arrAt_eq_of_cover 2 _ (fun t _ => flushed9 V c t) cover9

end Cert.Gcn

end
-- ==== Proof.Layers.lean ====
/-
  The idealized kernel's result is the network of its arguments.

  Layer by layer the fold through the program's segments is read: a product region leaves mm of the array it finds and the
  weights; the host stretch after it leaves the aggregation of that product, and the bias as a row; the bias region leaves
  reluRow (addRow for the last layer) of the two.  Every weight, bias and graph buffer is found where the fold carried it.
  Composing the five layers, the result buffer after the run holds net of the twelve arguments' launch contents.
-/
import proofs.«164061_j20761871909627_1_alg».proof.Proof.Entry
import proofs.«164061_j20761871909627_1_alg».proof.Proof.Net
import proofs.«164061_j20761871909627_1_alg».proof.Proof.KernelRun
import proofs.«164061_j20761871909627_1_alg».proof.Proof.Region0
import proofs.«164061_j20761871909627_1_alg».proof.Proof.Region1
import proofs.«164061_j20761871909627_1_alg».proof.Proof.Region2
import proofs.«164061_j20761871909627_1_alg».proof.Proof.Region3
import proofs.«164061_j20761871909627_1_alg».proof.Proof.Region4
import proofs.«164061_j20761871909627_1_alg».proof.Proof.Region5
import proofs.«164061_j20761871909627_1_alg».proof.Proof.Region6
import proofs.«164061_j20761871909627_1_alg».proof.Proof.Region7
import proofs.«164061_j20761871909627_1_alg».proof.Proof.Region8
import proofs.«164061_j20761871909627_1_alg».proof.Proof.Region9

set_option maxRecDepth 16384

noncomputable section

namespace Cert.Gcn

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- Layer 1: the product region 0, the aggregation and the bias row by the host, the bias region 1. -/
theorem step1 (c : Dev nD) : W6 m ρ c (Proc.devRef .tc main_v47) = layer 500 (m ((c : Thread nD τ).loc main_arg1)) (m ((c : Thread nD τ).loc main_arg0)) (m ((c : Thread nD τ).loc main_arg2)) (m ((c : Thread nD τ).loc main_arg3)) := by
  have hb : W6 m ρ c (Proc.devRef .tc main_v47) = (dat1 (V5 m ρ) c).arrAt 2 cfg1.N := W6_arr m ρ c 2
  rw [hb, final1 (V5 m ρ) c]
  dsimp only [V5, W5]
  rw [hostOps1_agg, hostOps1_row, v5_at4 m ρ c, v6_at4 m ρ c, v32_at4 m ρ c, arg3_at4 m ρ c,
    src_at3 m ρ c, dst_at3 m ρ c, norm_at3 m ρ c]
  have ha : W4 m ρ c (Proc.devRef .tc main_v33) = (dat0 (V3 m ρ) c).arrAt 2 cfg0.N := W4_arr m ρ c 2
  rw [ha, final0 (V3 m ρ) c]
  dsimp only [V3]
  rw [arg0_at3 m ρ c, arg2_at3 m ρ c]
  rfl

/-- Layer 2: the product region 2, the aggregation and the bias row by the host, the bias region 3. -/
theorem step2 (c : Dev nD) : W9 m ρ c (Proc.devRef .tc main_v62) = layer 128 (m ((c : Thread nD τ).loc main_arg1)) (W6 m ρ c (Proc.devRef .tc main_v47)) (m ((c : Thread nD τ).loc main_arg4)) (m ((c : Thread nD τ).loc main_arg5)) := by
  have hb : W9 m ρ c (Proc.devRef .tc main_v62) = (dat3 (V8 m ρ) c).arrAt 2 cfg3.N := W9_arr m ρ c 2
  rw [hb, final3 (V8 m ρ) c]
  dsimp only [V8, W8]
  rw [hostOps3_agg, hostOps3_row, v5_at7 m ρ c, v6_at7 m ρ c, v32_at7 m ρ c, arg5_at7 m ρ c,
    src_at3 m ρ c, dst_at3 m ρ c, norm_at3 m ρ c]
  have ha : W7 m ρ c (Proc.devRef .tc main_v48) = (dat2 (V6 m ρ) c).arrAt 2 cfg2.N := W7_arr m ρ c 2
  rw [ha, final2 (V6 m ρ) c]
  dsimp only [V6]
  rw [arg4_at6 m ρ c]
  rfl

/-- Layer 3: the product region 4, the aggregation and the bias row by the host, the bias region 5. -/
theorem step3 (c : Dev nD) : W12 m ρ c (Proc.devRef .tc main_v77) = layer 128 (m ((c : Thread nD τ).loc main_arg1)) (W9 m ρ c (Proc.devRef .tc main_v62)) (m ((c : Thread nD τ).loc main_arg6)) (m ((c : Thread nD τ).loc main_arg7)) := by
  have hb : W12 m ρ c (Proc.devRef .tc main_v77) = (dat5 (V11 m ρ) c).arrAt 2 cfg5.N := W12_arr m ρ c 2
  rw [hb, final5 (V11 m ρ) c]
  dsimp only [V11, W11]
  rw [hostOps5_agg, hostOps5_row, v5_at10 m ρ c, v6_at10 m ρ c, v32_at10 m ρ c, arg7_at10 m ρ c,
    src_at3 m ρ c, dst_at3 m ρ c, norm_at3 m ρ c]
  have ha : W10 m ρ c (Proc.devRef .tc main_v63) = (dat4 (V9 m ρ) c).arrAt 2 cfg4.N := W10_arr m ρ c 2
  rw [ha, final4 (V9 m ρ) c]
  dsimp only [V9]
  rw [arg6_at9 m ρ c]
  rfl

/-- Layer 4: the product region 6, the aggregation and the bias row by the host, the bias region 7. -/
theorem step4 (c : Dev nD) : W15 m ρ c (Proc.devRef .tc main_v92) = layer 128 (m ((c : Thread nD τ).loc main_arg1)) (W12 m ρ c (Proc.devRef .tc main_v77)) (m ((c : Thread nD τ).loc main_arg8)) (m ((c : Thread nD τ).loc main_arg9)) := by
  have hb : W15 m ρ c (Proc.devRef .tc main_v92) = (dat7 (V14 m ρ) c).arrAt 2 cfg7.N := W15_arr m ρ c 2
  rw [hb, final7 (V14 m ρ) c]
  dsimp only [V14, W14]
  rw [hostOps7_agg, hostOps7_row, v5_at13 m ρ c, v6_at13 m ρ c, v32_at13 m ρ c, arg9_at13 m ρ c,
    src_at3 m ρ c, dst_at3 m ρ c, norm_at3 m ρ c]
  have ha : W13 m ρ c (Proc.devRef .tc main_v78) = (dat6 (V12 m ρ) c).arrAt 2 cfg6.N := W13_arr m ρ c 2
  rw [ha, final6 (V12 m ρ) c]
  dsimp only [V12]
  rw [arg8_at12 m ρ c]
  rfl

/-- Layer 5: the product region 8, the aggregation and the bias row by the host, the bias region 9. -/
theorem step5 (c : Dev nD) : W18 m ρ c (Proc.devRef .tc main_v107) = lastLayer (m ((c : Thread nD τ).loc main_arg1)) (W15 m ρ c (Proc.devRef .tc main_v92)) (m ((c : Thread nD τ).loc main_arg10)) (m ((c : Thread nD τ).loc main_arg11)) := by
  have hb : W18 m ρ c (Proc.devRef .tc main_v107) = (dat9 (V17 m ρ) c).arrAt 2 cfg9.N := W18_arr m ρ c 2
  rw [hb, final9 (V17 m ρ) c]
  dsimp only [V17, W17]
  rw [hostOps9_agg, hostOps9_row, v5_at16 m ρ c, v6_at16 m ρ c, v32_at16 m ρ c, arg11_at16 m ρ c,
    src_at3 m ρ c, dst_at3 m ρ c, norm_at3 m ρ c]
  have ha : W16 m ρ c (Proc.devRef .tc main_v93) = (dat8 (V15 m ρ) c).arrAt 2 cfg8.N := W16_arr m ρ c 2
  rw [ha, final8 (V15 m ρ) c]
  dsimp only [V15]
  rw [arg10_at15 m ρ c]
  rfl

/-- The result buffer after the fold: the network of the arguments as launched. -/
theorem result_eq (c : Dev nD) : W18 m ρ c (Proc.devRef .tc main_v107)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [step5 m ρ c, step4 m ρ c, step3 m ρ c, step2 m ρ c, step1 m ρ c]
  rfl

/-- The idealized kernel's run: every weakly fair execution terminates, nothing faulting, with the result buffer at the
    network of the arguments and the arguments unchanged. -/
theorem kernel_run : θ_run defs (onTc (τ := τ) (main (F := Ideal))) ⟨m, fun _ => 0, ρ⟩ (fun r => ∀ c : Dev nD,
      r.2.mem ((c.tc : Thread nD τ).loc main_v107)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩)
    (Cert.KernelIdeal.ResultRun.run_result m ρ)

end Cert.Gcn

end
-- ==== Proof.RefSegDefs.lean ====
/-
  The idealized reference's line of 151 host operations, cut where the network's pieces end: the lists, degrees and inverse
  square roots; the where; the gathers and their product (the edge weights); then one segment per layer — the dot_general
  with the weights, the aggregation, the bias vector as a row broadcast down the rows and added, the maximum with a zero
  array (none for the last layer).  The segments, in order, are the whole line.
-/
import proofs.«164061_j20761871909627_1_alg».proof.Proof.ReferenceRun
import proofs.«164061_j20761871909627_1_alg».proof.Proof.Net

set_option maxRecDepth 16384

noncomputable section

open scoped BigOperators

namespace Cert.ReferenceIdeal.Segs

open Cert.ReferenceIdeal Cert.ReferenceIdeal.Gen
open Idealize.ShloMosaic Idealize.ShloMosaic.TcCoe Idealize.ShloMosaic.ValueIdx Idealize.SL.Sem Idealize.ShloMosaic.StableHlo
open Cert.Gcn (Ids EdgeCol srcOf dstOf posFrom rsqrtFrom disFrom normFrom normOf disOf agg128 agg3 row128 row3 layer lastLayer net)

section Segments
variable {F : FTy → Type} [FloatOps F]

/-! ## The line of operations, cut into eight segments -/

/-- The self-looped source and destination lists, the in-degrees, the degree test and the inverse square roots (21 operations). -/
abbrev seg0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- The where: the scalar zero spread over the nodes and the selection (3 operations). -/
abbrev seg1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The wrapped lists, the two gathers of the selected vector, their product as a column (20 operations). -/
abbrev seg2 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)) ]

/-- Layer 1 on the host (22 operations): the product, the aggregation, the bias row, the maximum with zero. -/
abbrev seg3 : List (HloOp τ sig (Elt F)) :=
  [ binary main_arg0 main_arg2 main_v33 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v40 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Layer 2 on the host (22 operations). -/
abbrev seg4 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf ]

/-- Layer 3 on the host (22 operations). -/
abbrev seg5 : List (HloOp τ sig (Elt F)) :=
  [ binary main_v66 main_arg6 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v74 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf ]

/-- Layer 4 on the host (22 operations). -/
abbrev seg6 : List (HloOp τ sig (Elt F)) :=
  [ binary main_v83 main_arg8 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v85 (broadcastInDim S1700000 ![] bcast_S_S1700000 : (⟨S_, .i32⟩ : BufTy).Contents (Elt F) → (⟨S1700000, .i32⟩ : BufTy).Contents (Elt F)),
    binary main_v3 main_v85 main_v86 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v87 (broadcastInDim S1700000 ![] bcast_S_S1700000 : (⟨S_, .i32⟩ : BufTy).Contents (Elt F) → (⟨S1700000, .i32⟩ : BufTy).Contents (Elt F)),
    binary main_v3 main_v87 main_v88 (addi : (⟨S1700000, .i32⟩ : BufTy).Contents (Elt F) → (⟨S1700000, .i32⟩ : BufTy).Contents (Elt F) → (⟨S1700000, .i32⟩ : BufTy).Contents (Elt F)),
    ternary main_v86 main_v88 main_v3 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v89 main_v90 (broadcastInDim S1700000x1 ![0] bcast_S1700000_S1700000x1_0 : (⟨S1700000, .i32⟩ : BufTy).Contents (Elt F) → (⟨S1700000x1, .i32⟩ : BufTy).Contents (Elt F)),
    binary main_v84 main_v90 main_v91 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v92 (broadcastInDim S1700000x128 ![0, 1] bcast_S1700000x1_S1700000x128_0_1 : (⟨S1700000x1, .f32⟩ : BufTy).Contents (Elt F) → (⟨S1700000x128, .f32⟩ : BufTy).Contents (Elt F)),
    binary main_v91 main_v92 main_v93 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v94 (broadcastInDim S100000x128 ![] bcast_S_S100000x128 : (⟨S_, .f32⟩ : BufTy).Contents (Elt F) → (⟨S100000x128, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg9 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v99) (TRef.of (T := ⟨S100000x128, .f32⟩) main_call4_v0) (TRef.of (T := ⟨S100000x128, .f32⟩) main_v100) maximumf ]

/-- Layer 5 on the host (19 operations): the product, the aggregation, the bias row. -/
abbrev seg7 : List (HloOp τ sig (Elt F)) :=
  [ binary main_v100 main_arg10 main_v101 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    nullary main_c_19 (constantI S_ 32 0#32),
    unary main_c_19 main_v102 (broadcastInDim S1700000 ![] bcast_S_S1700000 : (⟨S_, .i32⟩ : BufTy).Contents (Elt F) → (⟨S1700000, .i32⟩ : BufTy).Contents (Elt F)),
    binary main_v3 main_v102 main_v103 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v104 (broadcastInDim S1700000 ![] bcast_S_S1700000 : (⟨S_, .i32⟩ : BufTy).Contents (Elt F) → (⟨S1700000, .i32⟩ : BufTy).Contents (Elt F)),
    binary main_v3 main_v104 main_v105 (addi : (⟨S1700000, .i32⟩ : BufTy).Contents (Elt F) → (⟨S1700000, .i32⟩ : BufTy).Contents (Elt F) → (⟨S1700000, .i32⟩ : BufTy).Contents (Elt F)),
    ternary main_v103 main_v105 main_v3 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v106 main_v107 (broadcastInDim S1700000x1 ![0] bcast_S1700000_S1700000x1_0 : (⟨S1700000, .i32⟩ : BufTy).Contents (Elt F) → (⟨S1700000x1, .i32⟩ : BufTy).Contents (Elt F)),
    binary main_v101 main_v107 main_v108 ((fun x i => Host.gather gather_S100000x3_S1700000x1_S1700000x3_1_0_n_n_0_1_13 x i) : (⟨S100000x3, .f32⟩ : BufTy).Contents (Elt F) → (⟨S1700000x1, .i32⟩ : BufTy).Contents (Elt F) → (⟨S1700000x3, .f32⟩ : BufTy).Contents (Elt F)),
    unary main_v32 main_v109 (broadcastInDim S1700000x3 ![0, 1] bcast_S1700000x1_S1700000x3_0_1 : (⟨S1700000x1, .f32⟩ : BufTy).Contents (Elt F) → (⟨S1700000x3, .f32⟩ : BufTy).Contents (Elt F)),
    binary main_v108 main_v109 main_v110 (mulf : (⟨S1700000x3, .f32⟩ : BufTy).Contents (Elt F) → (⟨S1700000x3, .f32⟩ : BufTy).Contents (Elt F) → (⟨S1700000x3, .f32⟩ : BufTy).Contents (Elt F)),
    nullary main_cst_21 (constant S_ .f32 0x00000000#32),
    unary main_cst_21 main_v111 (broadcastInDim S100000x3 ![] bcast_S_S100000x3 : (⟨S_, .f32⟩ : BufTy).Contents (Elt F) → (⟨S100000x3, .f32⟩ : BufTy).Contents (Elt F)),
    unary main_v6 main_v112 (broadcastInDim S1700000x1 ![0] bcast_S1700000_S1700000x1_0 : (⟨S1700000, .i32⟩ : BufTy).Contents (Elt F) → (⟨S1700000x1, .i32⟩ : BufTy).Contents (Elt F)),
    ternary main_v111 main_v112 main_v110 main_v113 ((fun x i u => Host.scatterAdd scatter_S100000x3_S1700000x1_S1700000x3_1_0_0_1 x i u) : (⟨S100000x3, .f32⟩ : BufTy).Contents (Elt F) → (⟨S1700000x1, .i32⟩ : BufTy).Contents (Elt F) → (⟨S1700000x3, .f32⟩ : BufTy).Contents (Elt F) → (⟨S100000x3, .f32⟩ : BufTy).Contents (Elt F)),
    unary main_arg11 main_v114 (broadcastInDim S1x3 ![1] bcast_S3_S1x3_1 : (⟨S3, .f32⟩ : BufTy).Contents (Elt F) → (⟨S1x3, .f32⟩ : BufTy).Contents (Elt F)),
    unary main_v114 main_v115 (broadcastInDim S100000x3 ![0, 1] bcast_S1x3_S100000x3_0_1 : (⟨S1x3, .f32⟩ : BufTy).Contents (Elt F) → (⟨S100000x3, .f32⟩ : BufTy).Contents (Elt F)),
    binary main_v113 main_v115 main_v116 (addf : (⟨S100000x3, .f32⟩ : BufTy).Contents (Elt F) → (⟨S100000x3, .f32⟩ : BufTy).Contents (Elt F) → (⟨S100000x3, .f32⟩ : BufTy).Contents (Elt F)) ]

/-- The segments, in order, are the whole line. -/
theorem ops_split : (ValueP.ops : List (HloOp τ sig (Elt F))) = seg0 ++ (seg1 ++ (seg2 ++ (seg3 ++ (seg4 ++ (seg5 ++ (seg6 ++ seg7)))))) := rfl

end Segments

end Cert.ReferenceIdeal.Segs

end
-- ==== Proof.RefLayerEq.lean ====
/-
  The reference's layers in the host's own operations are the network's layers: at the extended reals the dot_general at
  (r, q) is the sum over the inner position, the bias vector recast as a row and broadcast down the rows is its entry q at
  (r, q), and the zero array is 0 — which are mm, reluRow and addRow.  The aggregation between the product and the bias is
  the same on both sides and is never applied at an index here: the bias step is stated on an arbitrary array.
-/
import proofs.«164061_j20761871909627_1_alg».proof.Proof.Gen.ReferenceIdeal
import proofs.«164061_j20761871909627_1_alg».proof.Proof.Net
import Idealize.ShloMosaic.Lib.ValueLayout

set_option maxRecDepth 16384

noncomputable section

open scoped BigOperators

namespace Cert.ReferenceIdeal.Segs

open Cert.ReferenceIdeal Cert.ReferenceIdeal.Gen
open Idealize.ShloMosaic Idealize.ShloMosaic.TcCoe Idealize.ShloMosaic.ValueIdx Idealize.SL.Sem Idealize.ShloMosaic.StableHlo
open Cert.Gcn (Ids EdgeCol srcOf dstOf posFrom rsqrtFrom disFrom normFrom normOf disOf agg128 agg3 row128 row3 layer lastLayer net)

/-! ## The reference's three products have plain dimension numbers -/

theorem plainR_500_128 : PlainDot (M := 100000) (K := 500) (N := 128) dot_S100000x500_S500x128_S100000x128_1_0_0_1_n_n where
  rank := rfl
  size := rfl
  l0 := fun _ _ => rfl
  l1 := fun j q => DotDims.lhsIdx_val_of_single dot_S100000x500_S500x128_S100000x128_1_0_0_1_n_n (cl := 1) rfl j q
  r0 := fun j q => DotDims.rhsIdx_val_of_single dot_S100000x500_S500x128_S100000x128_1_0_0_1_n_n (cr := 0) rfl j q
  r1 := fun _ _ => rfl

theorem plainR_128_128 : PlainDot (M := 100000) (K := 128) (N := 128) dot_S100000x128_S128x128_S100000x128_1_0_0_1_n_n where
  rank := rfl
  size := rfl
  l0 := fun _ _ => rfl
  l1 := fun j q => DotDims.lhsIdx_val_of_single dot_S100000x128_S128x128_S100000x128_1_0_0_1_n_n (cl := 1) rfl j q
  r0 := fun j q => DotDims.rhsIdx_val_of_single dot_S100000x128_S128x128_S100000x128_1_0_0_1_n_n (cr := 0) rfl j q
  r1 := fun _ _ => rfl

theorem plainR_128_3 : PlainDot (M := 100000) (K := 128) (N := 3) dot_S100000x128_S128x3_S100000x3_1_0_0_1_n_n where
  rank := rfl
  size := rfl
  l0 := fun _ _ => rfl
  l1 := fun j q => DotDims.lhsIdx_val_of_single dot_S100000x128_S128x3_S100000x3_1_0_0_1_n_n (cl := 1) rfl j q
  r0 := fun j q => DotDims.rhsIdx_val_of_single dot_S100000x128_S128x3_S100000x3_1_0_0_1_n_n (cr := 0) rfl j q
  r1 := fun _ _ => rfl

/-! ## The host's product and bias steps, named -/

/-- The host's product of the features with the first layer's weights. -/
def hostDot500 (h : FVec Ideal S100000x500 .f32) (w : FVec Ideal S500x128 .f32) : FVec Ideal S100000x128 .f32 :=
  Host.dotGeneral dot_S100000x500_S500x128_S100000x128_1_0_0_1_n_n none h w
/-- The host's product with a middle layer's weights. -/
def hostDot128 (h : FVec Ideal S100000x128 .f32) (w : FVec Ideal S128x128 .f32) : FVec Ideal S100000x128 .f32 :=
  Host.dotGeneral dot_S100000x128_S128x128_S100000x128_1_0_0_1_n_n none h w
/-- The host's product with the last layer's weights. -/
def hostDot3 (h : FVec Ideal S100000x128 .f32) (w : FVec Ideal S128x3 .f32) : FVec Ideal S100000x3 .f32 :=
  Host.dotGeneral dot_S100000x128_S128x3_S100000x3_1_0_0_1_n_n none h w

/-- The host's bias and relu on an array: the vector as a row, broadcast down the rows, added; the maximum with zeros. -/
def biasReluOn (a : FVec Ideal S100000x128 .f32) (b : FVec Ideal S128 .f32) : FVec Ideal S100000x128 .f32 :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))
/-- The host's bias on a 3-wide array, no relu. -/
def biasAddOn (a : FVec Ideal S100000x3 .f32) (b : FVec Ideal S3 .f32) : FVec Ideal S100000x3 .f32 :=
  addf a (broadcastInDim S100000x3 ![0, 1] bcast_S1x3_S100000x3_0_1 (broadcastInDim S1x3 ![1] bcast_S3_S1x3_1 b))

/-- The reference's first layer over given lists and edge weights. -/
def refLayer1 (s d : Ids) (n : EdgeCol) (h : FVec Ideal S100000x500 .f32) (w : FVec Ideal S500x128 .f32) (b : FVec Ideal S128 .f32) :
    FVec Ideal S100000x128 .f32 := biasReluOn (agg128 s d n (hostDot500 h w)) b
/-- A middle layer of the reference. -/
def refLayer (s d : Ids) (n : EdgeCol) (h : FVec Ideal S100000x128 .f32) (w : FVec Ideal S128x128 .f32) (b : FVec Ideal S128 .f32) :
    FVec Ideal S100000x128 .f32 := biasReluOn (agg128 s d n (hostDot128 h w)) b
/-- The reference's last layer. -/
def refLast (s d : Ids) (n : EdgeCol) (h : FVec Ideal S100000x128 .f32) (w : FVec Ideal S128x3 .f32) (b : FVec Ideal S3 .f32) :
    FVec Ideal S100000x3 .f32 := biasAddOn (agg3 s d n (hostDot3 h w)) b

/-! ## They are mm, reluRow and addRow -/

theorem hostDot500_eq (h : FVec Ideal S100000x500 .f32) (w : FVec Ideal S500x128 .f32) : hostDot500 h w = mm 100000 500 128 h w :=
  funext fun i => by
    obtain ⟨r, q, rfl⟩ : ∃ (r : Fin 100000) (q : Fin 128), i = ix2 r q := ⟨i 0, i 1, eq_ix2 i⟩
    exact hostDot_ix2 plainR_500_128 none h w r q
theorem hostDot128_eq (h : FVec Ideal S100000x128 .f32) (w : FVec Ideal S128x128 .f32) : hostDot128 h w = mm 100000 128 128 h w :=
  funext fun i => by
    obtain ⟨r, q, rfl⟩ : ∃ (r : Fin 100000) (q : Fin 128), i = ix2 r q := ⟨i 0, i 1, eq_ix2 i⟩
    exact hostDot_ix2 plainR_128_128 none h w r q
theorem hostDot3_eq (h : FVec Ideal S100000x128 .f32) (w : FVec Ideal S128x3 .f32) : hostDot3 h w = mm 100000 128 3 h w :=
  funext fun i => by
    obtain ⟨r, q, rfl⟩ : ∃ (r : Fin 100000) (q : Fin 3), i = ix2 r q := ⟨i 0, i 1, eq_ix2 i⟩
    exact hostDot_ix2 plainR_128_3 none h w r q

theorem biasReluOn_eq (a : FVec Ideal S100000x128 .f32) (b : FVec Ideal S128 .f32) :
    biasReluOn a b = reluRow 100000 128 a (row128 b) := by
  funext i
  obtain ⟨r, q, rfl⟩ : ∃ (r : Fin 100000) (q : Fin 128), i = ix2 r q := ⟨i 0, i 1, eq_ix2 i⟩
  unfold biasReluOn
  rw [hostBiasRelu_ix2, reluRow_ix2]
  unfold row128
  rw [shapeCast_a_1a_apply]

theorem biasAddOn_eq (a : FVec Ideal S100000x3 .f32) (b : FVec Ideal S3 .f32) :
    biasAddOn a b = addRow 100000 3 a (row3 b) := by
  funext i
  obtain ⟨r, q, rfl⟩ : ∃ (r : Fin 100000) (q : Fin 3), i = ix2 r q := ⟨i 0, i 1, eq_ix2 i⟩
  show FloatOps.addf (F := Ideal) (φ := .f32) (a (ix2 r q)) ((broadcastInDim S100000x3 ![0, 1] bcast_S1x3_S100000x3_0_1 (broadcastInDim S1x3 ![1] bcast_S3_S1x3_1 b)) (ix2 r q)) = _
  rw [hostBiasRow_ix2, Ideal.addf_def, addRow_ix2]
  unfold row3
  rw [shapeCast_a_1a_apply]

theorem refLayer1_eq (s d : Ids) (n : EdgeCol) (h : FVec Ideal S100000x500 .f32) (w : FVec Ideal S500x128 .f32) (b : FVec Ideal S128 .f32) :
    refLayer1 s d n h w b = reluRow 100000 128 (agg128 s d n (mm 100000 500 128 h w)) (row128 b) := by
  unfold refLayer1
  rw [hostDot500_eq, biasReluOn_eq]
theorem refLayer_eq (s d : Ids) (n : EdgeCol) (h : FVec Ideal S100000x128 .f32) (w : FVec Ideal S128x128 .f32) (b : FVec Ideal S128 .f32) :
    refLayer s d n h w b = reluRow 100000 128 (agg128 s d n (mm 100000 128 128 h w)) (row128 b) := by
  unfold refLayer
  rw [hostDot128_eq, biasReluOn_eq]
theorem refLast_eq (s d : Ids) (n : EdgeCol) (h : FVec Ideal S100000x128 .f32) (w : FVec Ideal S128x3 .f32) (b : FVec Ideal S3 .f32) :
    refLast s d n h w b = addRow 100000 3 (agg3 s d n (mm 100000 128 3 h w)) (row3 b) := by
  unfold refLast
  rw [hostDot3_eq, biasAddOn_eq]

end Cert.ReferenceIdeal.Segs

end
-- ==== Proof.RefReads.lean ====
/-
  What each segment of the reference's line leaves in its last buffer, as a function of the few buffers it reads, over any
  contents before it.  The graph pieces are the kernel program's, operation for operation.  A layer's segment is read in two
  halves — the product and the aggregation, then the bias row (and the maximum with zeros) — and the halves are put together:
  the second half reads the aggregated array the first half left and the bias vector, which the first half does not write.
-/
import proofs.«164061_j20761871909627_1_alg».proof.Proof.RefSegDefs
import proofs.«164061_j20761871909627_1_alg».proof.Proof.RefLayerEq
import proofs.«164061_j20761871909627_1_alg».proof.Proof.LibHostResults
import Idealize.ShloMosaic.Lib.Pipeline.Frame

set_option maxRecDepth 16384

noncomputable section

open scoped BigOperators

namespace Cert.ReferenceIdeal.Segs

open Cert.ReferenceIdeal Cert.ReferenceIdeal.Gen
open Idealize.ShloMosaic Idealize.ShloMosaic.TcCoe Idealize.ShloMosaic.ValueIdx Idealize.SL.Sem Idealize.ShloMosaic.StableHlo
open Cert.Gcn (Ids EdgeCol srcOf dstOf posFrom rsqrtFrom disFrom normFrom normOf disOf agg128 agg3 row128 row3 layer lastLayer net)

/-! ## The three segments before the first layer -/

theorem seg0_src (W : Valuation τ sig (Elt Ideal)) :
    StableHlo.after (seg0 (F := Ideal)) W (Proc.devRef .tc main_v3) = srcOf (W (Proc.devRef .tc main_arg1)) := by
  host_results
  rfl
theorem seg0_dst (W : Valuation τ sig (Elt Ideal)) :
    StableHlo.after (seg0 (F := Ideal)) W (Proc.devRef .tc main_v6) = dstOf (W (Proc.devRef .tc main_arg1)) := by
  host_results
  rfl
theorem seg0_pos (W : Valuation τ sig (Elt Ideal)) :
    StableHlo.after (seg0 (F := Ideal)) W (Proc.devRef .tc main_v12) = posFrom (dstOf (W (Proc.devRef .tc main_arg1))) := by
  host_results
  rfl
theorem seg0_rsqrt (W : Valuation τ sig (Elt Ideal)) :
    StableHlo.after (seg0 (F := Ideal)) W (Proc.devRef .tc main_v15) = rsqrtFrom (dstOf (W (Proc.devRef .tc main_arg1))) := by
  host_results
  rfl
theorem seg0_zero (W : Valuation τ sig (Elt Ideal)) :
    StableHlo.after (seg0 (F := Ideal)) W (Proc.devRef .tc main_cst_3) = constant (F := Ideal) S_ .f32 0x00000000#32 := by
  host_results
theorem seg1_dis (W : Valuation τ sig (Elt Ideal)) :
    StableHlo.after (seg1 (F := Ideal)) W (Proc.devRef .tc main_v16)
      = disFrom (W (Proc.devRef .tc main_v12)) (W (Proc.devRef .tc main_v15)) (W (Proc.devRef .tc main_cst_3)) := by
  host_results
  rfl
theorem seg2_norm (W : Valuation τ sig (Elt Ideal)) :
    StableHlo.after (seg2 (F := Ideal)) W (Proc.devRef .tc main_v32)
      = normFrom (W (Proc.devRef .tc main_v16)) (W (Proc.devRef .tc main_v3)) (W (Proc.devRef .tc main_v6)) := by
  host_results
  rfl

/-! ## The five layer segments, each in two halves -/

section Halves3
variable {F : FTy → Type} [FloatOps F]
/-- The first half of segment 3: the product with the weights and the aggregation (16 operations). -/
abbrev seg3A : List (HloOp τ sig (Elt F)) :=
  [ binary main_arg0 main_arg2 main_v33 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v40 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second half of segment 3: the bias row, the sum and the maximum with zeros (6 operations). -/
abbrev seg3B : List (HloOp τ sig (Elt F)) :=
  [ unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

end Halves3

theorem seg3A_out (W : Valuation τ sig (Elt Ideal)) :
    StableHlo.after (seg3A (F := Ideal)) W (Proc.devRef .tc main_v45)
      = agg128 (W (Proc.devRef .tc main_v3)) (W (Proc.devRef .tc main_v6)) (W (Proc.devRef .tc main_v32)) (hostDot500 (W (Proc.devRef .tc main_arg0)) (W (Proc.devRef .tc main_arg2))) := by
  host_results
  rfl
theorem seg3B_out (W : Valuation τ sig (Elt Ideal)) :
    StableHlo.after (seg3B (F := Ideal)) W (Proc.devRef .tc main_v49) = biasReluOn (W (Proc.devRef .tc main_v45)) (W (Proc.devRef .tc main_arg3)) := by
  host_results
  rfl
/-- The first half does not write the bias vector. -/
theorem seg3A_bias (W : Valuation τ sig (Elt Ideal)) :
    StableHlo.after (seg3A (F := Ideal)) W (Proc.devRef .tc main_arg3) = W (Proc.devRef .tc main_arg3) := by
  exact StableHlo.after_of_forall_not_mem _ _ (List.forall_iff_forall_mem.mp (by
      simp only [seg3A, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Segment 3, whole: the reference's layer of the buffers it reads. -/
theorem seg3_out (W : Valuation τ sig (Elt Ideal)) :
    StableHlo.after (seg3 (F := Ideal)) W (Proc.devRef .tc main_v49)
      = refLayer1 (W (Proc.devRef .tc main_v3)) (W (Proc.devRef .tc main_v6)) (W (Proc.devRef .tc main_v32)) (W (Proc.devRef .tc main_arg0)) (W (Proc.devRef .tc main_arg2)) (W (Proc.devRef .tc main_arg3)) := by
  have hs : (seg3 (F := Ideal)) = seg3A ++ seg3B := rfl
  rw [hs, StableHlo.after_append, seg3B_out, seg3A_out, seg3A_bias]
  rfl

section Halves4
variable {F : FTy → Type} [FloatOps F]
/-- The first half of segment 4: the product with the weights and the aggregation (16 operations). -/
abbrev seg4A : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second half of segment 4: the bias row, the sum and the maximum with zeros (6 operations). -/
abbrev seg4B : List (HloOp τ sig (Elt F)) :=
  [ unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf ]

end Halves4

theorem seg4A_out (W : Valuation τ sig (Elt Ideal)) :
    StableHlo.after (seg4A (F := Ideal)) W (Proc.devRef .tc main_v62)
      = agg128 (W (Proc.devRef .tc main_v3)) (W (Proc.devRef .tc main_v6)) (W (Proc.devRef .tc main_v32)) (hostDot128 (W (Proc.devRef .tc main_v49)) (W (Proc.devRef .tc main_arg4))) := by
  host_results
  rfl
theorem seg4B_out (W : Valuation τ sig (Elt Ideal)) :
    StableHlo.after (seg4B (F := Ideal)) W (Proc.devRef .tc main_v66) = biasReluOn (W (Proc.devRef .tc main_v62)) (W (Proc.devRef .tc main_arg5)) := by
  host_results
  rfl
/-- The first half does not write the bias vector. -/
theorem seg4A_bias (W : Valuation τ sig (Elt Ideal)) :
    StableHlo.after (seg4A (F := Ideal)) W (Proc.devRef .tc main_arg5) = W (Proc.devRef .tc main_arg5) := by
  exact StableHlo.after_of_forall_not_mem _ _ (List.forall_iff_forall_mem.mp (by
      simp only [seg4A, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Segment 4, whole: the reference's layer of the buffers it reads. -/
theorem seg4_out (W : Valuation τ sig (Elt Ideal)) :
    StableHlo.after (seg4 (F := Ideal)) W (Proc.devRef .tc main_v66)
      = refLayer (W (Proc.devRef .tc main_v3)) (W (Proc.devRef .tc main_v6)) (W (Proc.devRef .tc main_v32)) (W (Proc.devRef .tc main_v49)) (W (Proc.devRef .tc main_arg4)) (W (Proc.devRef .tc main_arg5)) := by
  have hs : (seg4 (F := Ideal)) = seg4A ++ seg4B := rfl
  rw [hs, StableHlo.after_append, seg4B_out, seg4A_out, seg4A_bias]
  rfl

section Halves5
variable {F : FTy → Type} [FloatOps F]
/-- The first half of segment 5: the product with the weights and the aggregation (16 operations). -/
abbrev seg5A : List (HloOp τ sig (Elt F)) :=
  [ binary main_v66 main_arg6 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v74 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second half of segment 5: the bias row, the sum and the maximum with zeros (6 operations). -/
abbrev seg5B : List (HloOp τ sig (Elt F)) :=
  [ unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf ]

end Halves5

theorem seg5A_out (W : Valuation τ sig (Elt Ideal)) :
    StableHlo.after (seg5A (F := Ideal)) W (Proc.devRef .tc main_v79)
      = agg128 (W (Proc.devRef .tc main_v3)) (W (Proc.devRef .tc main_v6)) (W (Proc.devRef .tc main_v32)) (hostDot128 (W (Proc.devRef .tc main_v66)) (W (Proc.devRef .tc main_arg6))) := by
  host_results
  rfl
theorem seg5B_out (W : Valuation τ sig (Elt Ideal)) :
    StableHlo.after (seg5B (F := Ideal)) W (Proc.devRef .tc main_v83) = biasReluOn (W (Proc.devRef .tc main_v79)) (W (Proc.devRef .tc main_arg7)) := by
  host_results
  rfl
/-- The first half does not write the bias vector. -/
theorem seg5A_bias (W : Valuation τ sig (Elt Ideal)) :
    StableHlo.after (seg5A (F := Ideal)) W (Proc.devRef .tc main_arg7) = W (Proc.devRef .tc main_arg7) := by
  exact StableHlo.after_of_forall_not_mem _ _ (List.forall_iff_forall_mem.mp (by
      simp only [seg5A, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Segment 5, whole: the reference's layer of the buffers it reads. -/
theorem seg5_out (W : Valuation τ sig (Elt Ideal)) :
    StableHlo.after (seg5 (F := Ideal)) W (Proc.devRef .tc main_v83)
      = refLayer (W (Proc.devRef .tc main_v3)) (W (Proc.devRef .tc main_v6)) (W (Proc.devRef .tc main_v32)) (W (Proc.devRef .tc main_v66)) (W (Proc.devRef .tc main_arg6)) (W (Proc.devRef .tc main_arg7)) := by
  have hs : (seg5 (F := Ideal)) = seg5A ++ seg5B := rfl
  rw [hs, StableHlo.after_append, seg5B_out, seg5A_out, seg5A_bias]
  rfl

section Halves6
variable {F : FTy → Type} [FloatOps F]
/-- The first half of segment 6: the product with the weights and the aggregation (16 operations). -/
abbrev seg6A : List (HloOp τ sig (Elt F)) :=
  [ binary main_v83 main_arg8 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v85 (broadcastInDim S1700000 ![] bcast_S_S1700000 : (⟨S_, .i32⟩ : BufTy).Contents (Elt F) → (⟨S1700000, .i32⟩ : BufTy).Contents (Elt F)),
    binary main_v3 main_v85 main_v86 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v87 (broadcastInDim S1700000 ![] bcast_S_S1700000 : (⟨S_, .i32⟩ : BufTy).Contents (Elt F) → (⟨S1700000, .i32⟩ : BufTy).Contents (Elt F)),
    binary main_v3 main_v87 main_v88 (addi : (⟨S1700000, .i32⟩ : BufTy).Contents (Elt F) → (⟨S1700000, .i32⟩ : BufTy).Contents (Elt F) → (⟨S1700000, .i32⟩ : BufTy).Contents (Elt F)),
    ternary main_v86 main_v88 main_v3 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v89 main_v90 (broadcastInDim S1700000x1 ![0] bcast_S1700000_S1700000x1_0 : (⟨S1700000, .i32⟩ : BufTy).Contents (Elt F) → (⟨S1700000x1, .i32⟩ : BufTy).Contents (Elt F)),
    binary main_v84 main_v90 main_v91 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v92 (broadcastInDim S1700000x128 ![0, 1] bcast_S1700000x1_S1700000x128_0_1 : (⟨S1700000x1, .f32⟩ : BufTy).Contents (Elt F) → (⟨S1700000x128, .f32⟩ : BufTy).Contents (Elt F)),
    binary main_v91 main_v92 main_v93 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v94 (broadcastInDim S100000x128 ![] bcast_S_S100000x128 : (⟨S_, .f32⟩ : BufTy).Contents (Elt F) → (⟨S100000x128, .f32⟩ : BufTy).Contents (Elt F)),
    unary main_v6 main_v95 (broadcastInDim S1700000x1 ![0] bcast_S1700000_S1700000x1_0 : (⟨S1700000, .i32⟩ : BufTy).Contents (Elt F) → (⟨S1700000x1, .i32⟩ : BufTy).Contents (Elt F)),
    ternary main_v94 main_v95 main_v93 main_v96 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second half of segment 6: the bias row, the sum and the maximum with zeros (6 operations). -/
abbrev seg6B : List (HloOp τ sig (Elt F)) :=
  [ unary main_arg9 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v99) (TRef.of (T := ⟨S100000x128, .f32⟩) main_call4_v0) (TRef.of (T := ⟨S100000x128, .f32⟩) main_v100) maximumf ]

end Halves6

theorem seg6A_out (W : Valuation τ sig (Elt Ideal)) :
    StableHlo.after (seg6A (F := Ideal)) W (Proc.devRef .tc main_v96)
      = agg128 (W (Proc.devRef .tc main_v3)) (W (Proc.devRef .tc main_v6)) (W (Proc.devRef .tc main_v32)) (hostDot128 (W (Proc.devRef .tc main_v83)) (W (Proc.devRef .tc main_arg8))) := by
  host_results
  rfl
theorem seg6B_out (W : Valuation τ sig (Elt Ideal)) :
    StableHlo.after (seg6B (F := Ideal)) W (Proc.devRef .tc main_v100) = biasReluOn (W (Proc.devRef .tc main_v96)) (W (Proc.devRef .tc main_arg9)) := by
  host_results
  rfl
/-- The first half does not write the bias vector. -/
theorem seg6A_bias (W : Valuation τ sig (Elt Ideal)) :
    StableHlo.after (seg6A (F := Ideal)) W (Proc.devRef .tc main_arg9) = W (Proc.devRef .tc main_arg9) := by
  exact StableHlo.after_of_forall_not_mem _ _ (List.forall_iff_forall_mem.mp (by
      simp only [seg6A, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Segment 6, whole: the reference's layer of the buffers it reads. -/
theorem seg6_out (W : Valuation τ sig (Elt Ideal)) :
    StableHlo.after (seg6 (F := Ideal)) W (Proc.devRef .tc main_v100)
      = refLayer (W (Proc.devRef .tc main_v3)) (W (Proc.devRef .tc main_v6)) (W (Proc.devRef .tc main_v32)) (W (Proc.devRef .tc main_v83)) (W (Proc.devRef .tc main_arg8)) (W (Proc.devRef .tc main_arg9)) := by
  have hs : (seg6 (F := Ideal)) = seg6A ++ seg6B := rfl
  rw [hs, StableHlo.after_append, seg6B_out, seg6A_out, seg6A_bias]
  rfl

section Halves7
variable {F : FTy → Type} [FloatOps F]
/-- The first half of segment 7: the product with the weights and the aggregation (16 operations). -/
abbrev seg7A : List (HloOp τ sig (Elt F)) :=
  [ binary main_v100 main_arg10 main_v101 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    nullary main_c_19 (constantI S_ 32 0#32),
    unary main_c_19 main_v102 (broadcastInDim S1700000 ![] bcast_S_S1700000 : (⟨S_, .i32⟩ : BufTy).Contents (Elt F) → (⟨S1700000, .i32⟩ : BufTy).Contents (Elt F)),
    binary main_v3 main_v102 main_v103 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v104 (broadcastInDim S1700000 ![] bcast_S_S1700000 : (⟨S_, .i32⟩ : BufTy).Contents (Elt F) → (⟨S1700000, .i32⟩ : BufTy).Contents (Elt F)),
    binary main_v3 main_v104 main_v105 (addi : (⟨S1700000, .i32⟩ : BufTy).Contents (Elt F) → (⟨S1700000, .i32⟩ : BufTy).Contents (Elt F) → (⟨S1700000, .i32⟩ : BufTy).Contents (Elt F)),
    ternary main_v103 main_v105 main_v3 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v106 main_v107 (broadcastInDim S1700000x1 ![0] bcast_S1700000_S1700000x1_0 : (⟨S1700000, .i32⟩ : BufTy).Contents (Elt F) → (⟨S1700000x1, .i32⟩ : BufTy).Contents (Elt F)),
    binary main_v101 main_v107 main_v108 ((fun x i => Host.gather gather_S100000x3_S1700000x1_S1700000x3_1_0_n_n_0_1_13 x i) : (⟨S100000x3, .f32⟩ : BufTy).Contents (Elt F) → (⟨S1700000x1, .i32⟩ : BufTy).Contents (Elt F) → (⟨S1700000x3, .f32⟩ : BufTy).Contents (Elt F)),
    unary main_v32 main_v109 (broadcastInDim S1700000x3 ![0, 1] bcast_S1700000x1_S1700000x3_0_1 : (⟨S1700000x1, .f32⟩ : BufTy).Contents (Elt F) → (⟨S1700000x3, .f32⟩ : BufTy).Contents (Elt F)),
    binary main_v108 main_v109 main_v110 (mulf : (⟨S1700000x3, .f32⟩ : BufTy).Contents (Elt F) → (⟨S1700000x3, .f32⟩ : BufTy).Contents (Elt F) → (⟨S1700000x3, .f32⟩ : BufTy).Contents (Elt F)),
    nullary main_cst_21 (constant S_ .f32 0x00000000#32),
    unary main_cst_21 main_v111 (broadcastInDim S100000x3 ![] bcast_S_S100000x3 : (⟨S_, .f32⟩ : BufTy).Contents (Elt F) → (⟨S100000x3, .f32⟩ : BufTy).Contents (Elt F)),
    unary main_v6 main_v112 (broadcastInDim S1700000x1 ![0] bcast_S1700000_S1700000x1_0 : (⟨S1700000, .i32⟩ : BufTy).Contents (Elt F) → (⟨S1700000x1, .i32⟩ : BufTy).Contents (Elt F)),
    ternary main_v111 main_v112 main_v110 main_v113 ((fun x i u => Host.scatterAdd scatter_S100000x3_S1700000x1_S1700000x3_1_0_0_1 x i u) : (⟨S100000x3, .f32⟩ : BufTy).Contents (Elt F) → (⟨S1700000x1, .i32⟩ : BufTy).Contents (Elt F) → (⟨S1700000x3, .f32⟩ : BufTy).Contents (Elt F) → (⟨S100000x3, .f32⟩ : BufTy).Contents (Elt F)) ]

/-- The second half of segment 7: the bias row and the sum (3 operations). -/
abbrev seg7B : List (HloOp τ sig (Elt F)) :=
  [ unary main_arg11 main_v114 (broadcastInDim S1x3 ![1] bcast_S3_S1x3_1 : (⟨S3, .f32⟩ : BufTy).Contents (Elt F) → (⟨S1x3, .f32⟩ : BufTy).Contents (Elt F)),
    unary main_v114 main_v115 (broadcastInDim S100000x3 ![0, 1] bcast_S1x3_S100000x3_0_1 : (⟨S1x3, .f32⟩ : BufTy).Contents (Elt F) → (⟨S100000x3, .f32⟩ : BufTy).Contents (Elt F)),
    binary main_v113 main_v115 main_v116 (addf : (⟨S100000x3, .f32⟩ : BufTy).Contents (Elt F) → (⟨S100000x3, .f32⟩ : BufTy).Contents (Elt F) → (⟨S100000x3, .f32⟩ : BufTy).Contents (Elt F)) ]

end Halves7

theorem seg7A_out (W : Valuation τ sig (Elt Ideal)) :
    StableHlo.after (seg7A (F := Ideal)) W (Proc.devRef .tc main_v113)
      = agg3 (W (Proc.devRef .tc main_v3)) (W (Proc.devRef .tc main_v6)) (W (Proc.devRef .tc main_v32)) (hostDot3 (W (Proc.devRef .tc main_v100)) (W (Proc.devRef .tc main_arg10))) := by
  host_results
  rfl
theorem seg7B_out (W : Valuation τ sig (Elt Ideal)) :
    StableHlo.after (seg7B (F := Ideal)) W (Proc.devRef .tc main_v116) = biasAddOn (W (Proc.devRef .tc main_v113)) (W (Proc.devRef .tc main_arg11)) := by
  host_results
  rfl
/-- The first half does not write the bias vector. -/
theorem seg7A_bias (W : Valuation τ sig (Elt Ideal)) :
    StableHlo.after (seg7A (F := Ideal)) W (Proc.devRef .tc main_arg11) = W (Proc.devRef .tc main_arg11) := by
  exact StableHlo.after_of_forall_not_mem _ _ (List.forall_iff_forall_mem.mp (by
      simp only [seg7A, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- Segment 7, whole: the reference's layer of the buffers it reads. -/
theorem seg7_out (W : Valuation τ sig (Elt Ideal)) :
    StableHlo.after (seg7 (F := Ideal)) W (Proc.devRef .tc main_v116)
      = refLast (W (Proc.devRef .tc main_v3)) (W (Proc.devRef .tc main_v6)) (W (Proc.devRef .tc main_v32)) (W (Proc.devRef .tc main_v100)) (W (Proc.devRef .tc main_arg10)) (W (Proc.devRef .tc main_arg11)) := by
  have hs : (seg7 (F := Ideal)) = seg7A ++ seg7B := rfl
  rw [hs, StableHlo.after_append, seg7B_out, seg7A_out, seg7A_bias]
  rfl

end Cert.ReferenceIdeal.Segs

end
-- ==== Proof.RefCompose.lean ====
/-
  The reference's line composed: the contents after each segment, the buffers a later segment reads carried along by the
  segments in between, the five layers, and the result — the last buffer after the line holds net of the twelve arguments.
-/
import proofs.«164061_j20761871909627_1_alg».proof.Proof.RefReads
import Idealize.ShloMosaic.Lib.Pipeline.Frame

set_option maxRecDepth 16384

noncomputable section

open scoped BigOperators

namespace Cert.ReferenceIdeal.Segs

open Cert.ReferenceIdeal Cert.ReferenceIdeal.Gen
open Idealize.ShloMosaic Idealize.ShloMosaic.TcCoe Idealize.ShloMosaic.ValueIdx Idealize.SL.Sem Idealize.ShloMosaic.StableHlo
open Cert.Gcn (Ids EdgeCol srcOf dstOf posFrom rsqrtFrom disFrom normFrom normOf disOf agg128 agg3 row128 row3 layer lastLayer net)

/-! ## The contents after each segment, and the buffers carried along -/

variable (m : (ℓ : Loc nD τ sig) → Buf (Elt Ideal) ℓ) (c : Dev nD)

abbrev U0 : Valuation τ sig (Elt Ideal) := launchContents m c
abbrev U1 : Valuation τ sig (Elt Ideal) := StableHlo.after (seg0 (F := Ideal)) (U0 m c)
abbrev U2 : Valuation τ sig (Elt Ideal) := StableHlo.after (seg1 (F := Ideal)) (U1 m c)
abbrev U3 : Valuation τ sig (Elt Ideal) := StableHlo.after (seg2 (F := Ideal)) (U2 m c)
abbrev U4 : Valuation τ sig (Elt Ideal) := StableHlo.after (seg3 (F := Ideal)) (U3 m c)
abbrev U5 : Valuation τ sig (Elt Ideal) := StableHlo.after (seg4 (F := Ideal)) (U4 m c)
abbrev U6 : Valuation τ sig (Elt Ideal) := StableHlo.after (seg5 (F := Ideal)) (U5 m c)
abbrev U7 : Valuation τ sig (Elt Ideal) := StableHlo.after (seg6 (F := Ideal)) (U6 m c)
abbrev U8 : Valuation τ sig (Elt Ideal) := StableHlo.after (seg7 (F := Ideal)) (U7 m c)

theorem ops_after : StableHlo.after (ValueP.ops (F := Ideal)) (launchContents m c) = U8 m c := by
  rw [ops_split]
  simp only [StableHlo.after_append]

/-- Segment 0 writes none of the listed buffers. -/
theorem keepR0 (b : Ref sig .tc) (hb : b ∈ ([main_arg0, main_arg2, main_arg3, main_arg4, main_arg5, main_arg6, main_arg7, main_arg8, main_arg9, main_arg10, main_arg11] : List (Ref sig .tc))) :
    U1 m c (Proc.devRef .tc b) = U0 m c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [seg0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 1 writes none of the listed buffers. -/
theorem keepR1 (b : Ref sig .tc) (hb : b ∈ ([main_arg0, main_arg2, main_arg3, main_arg4, main_arg5, main_arg6, main_arg7, main_arg8, main_arg9, main_arg10, main_arg11, main_v3, main_v6] : List (Ref sig .tc))) :
    U2 m c (Proc.devRef .tc b) = U1 m c (Proc.devRef .tc b) := by
  simp only [List.mem_cons, List.mem_nil_iff, or_false] at hb
  rcases hb with rfl | rfl | rfl | rfl | rfl | rfl | rfl | rfl | rfl | rfl | rfl | rfl | rfl
  all_goals
    exact StableHlo.after_of_forall_not_mem _ _ (List.forall_iff_forall_mem.mp (by
      simp only [seg1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 2 writes none of the listed buffers. -/
theorem keepR2 (b : Ref sig .tc) (hb : b ∈ ([main_arg0, main_arg2, main_arg3, main_arg4, main_arg5, main_arg6, main_arg7, main_arg8, main_arg9, main_arg10, main_arg11, main_v3, main_v6] : List (Ref sig .tc))) :
    U3 m c (Proc.devRef .tc b) = U2 m c (Proc.devRef .tc b) := by
  simp only [List.mem_cons, List.mem_nil_iff, or_false] at hb
  rcases hb with rfl | rfl | rfl | rfl | rfl | rfl | rfl | rfl | rfl | rfl | rfl | rfl | rfl
  all_goals
    exact StableHlo.after_of_forall_not_mem _ _ (List.forall_iff_forall_mem.mp (by
      simp only [seg2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 3 writes none of the listed buffers. -/
theorem keepR3 (b : Ref sig .tc) (hb : b ∈ ([main_arg4, main_arg5, main_arg6, main_arg7, main_arg8, main_arg9, main_arg10, main_arg11, main_v3, main_v6, main_v32] : List (Ref sig .tc))) :
    U4 m c (Proc.devRef .tc b) = U3 m c (Proc.devRef .tc b) := by
  simp only [List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [seg3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 4 writes none of the listed buffers. -/
theorem keepR4 (b : Ref sig .tc) (hb : b ∈ ([main_arg6, main_arg7, main_arg8, main_arg9, main_arg10, main_arg11, main_v3, main_v6, main_v32] : List (Ref sig .tc))) :
    U5 m c (Proc.devRef .tc b) = U4 m c (Proc.devRef .tc b) := by
  simp only [List.mem_cons, List.mem_nil_iff, or_false] at hb
  rcases hb with rfl | rfl | rfl | rfl | rfl | rfl | rfl | rfl | rfl
  all_goals
    exact StableHlo.after_of_forall_not_mem _ _ (List.forall_iff_forall_mem.mp (by
      simp only [seg4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 5 writes none of the listed buffers. -/
theorem keepR5 (b : Ref sig .tc) (hb : b ∈ ([main_arg8, main_arg9, main_arg10, main_arg11, main_v3, main_v6, main_v32] : List (Ref sig .tc))) :
    U6 m c (Proc.devRef .tc b) = U5 m c (Proc.devRef .tc b) := by
  simp only [List.mem_cons, List.mem_nil_iff, or_false] at hb
  rcases hb with rfl | rfl | rfl | rfl | rfl | rfl | rfl
  all_goals
    exact StableHlo.after_of_forall_not_mem _ _ (List.forall_iff_forall_mem.mp (by
      simp only [seg5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 6 writes none of the listed buffers. -/
theorem keepR6 (b : Ref sig .tc) (hb : b ∈ ([main_arg10, main_arg11, main_v3, main_v6, main_v32] : List (Ref sig .tc))) :
    U7 m c (Proc.devRef .tc b) = U6 m c (Proc.devRef .tc b) := by
  simp only [List.mem_cons, List.mem_nil_iff, or_false] at hb
  rcases hb with rfl | rfl | rfl | rfl | rfl
  all_goals
    exact StableHlo.after_of_forall_not_mem _ _ (List.forall_iff_forall_mem.mp (by
      simp only [seg6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem argR0_at3 : U3 m c (Proc.devRef .tc main_arg0) = (m ((c.tc : Thread nD τ).loc main_arg0)) :=
  ((keepR2 m c main_arg0 (by decide)).trans ((keepR1 m c main_arg0 (by decide)).trans (keepR0 m c main_arg0 (by decide)))).trans rfl
theorem argR2_at3 : U3 m c (Proc.devRef .tc main_arg2) = (m ((c.tc : Thread nD τ).loc main_arg2)) :=
  ((keepR2 m c main_arg2 (by decide)).trans ((keepR1 m c main_arg2 (by decide)).trans (keepR0 m c main_arg2 (by decide)))).trans rfl
theorem argR3_at3 : U3 m c (Proc.devRef .tc main_arg3) = (m ((c.tc : Thread nD τ).loc main_arg3)) :=
  ((keepR2 m c main_arg3 (by decide)).trans ((keepR1 m c main_arg3 (by decide)).trans (keepR0 m c main_arg3 (by decide)))).trans rfl
theorem argR4_at4 : U4 m c (Proc.devRef .tc main_arg4) = (m ((c.tc : Thread nD τ).loc main_arg4)) :=
  ((keepR3 m c main_arg4 (by decide)).trans ((keepR2 m c main_arg4 (by decide)).trans ((keepR1 m c main_arg4 (by decide)).trans (keepR0 m c main_arg4 (by decide))))).trans rfl
theorem argR5_at4 : U4 m c (Proc.devRef .tc main_arg5) = (m ((c.tc : Thread nD τ).loc main_arg5)) :=
  ((keepR3 m c main_arg5 (by decide)).trans ((keepR2 m c main_arg5 (by decide)).trans ((keepR1 m c main_arg5 (by decide)).trans (keepR0 m c main_arg5 (by decide))))).trans rfl
theorem argR6_at5 : U5 m c (Proc.devRef .tc main_arg6) = (m ((c.tc : Thread nD τ).loc main_arg6)) :=
  ((keepR4 m c main_arg6 (by decide)).trans ((keepR3 m c main_arg6 (by decide)).trans ((keepR2 m c main_arg6 (by decide)).trans ((keepR1 m c main_arg6 (by decide)).trans (keepR0 m c main_arg6 (by decide)))))).trans rfl
theorem argR7_at5 : U5 m c (Proc.devRef .tc main_arg7) = (m ((c.tc : Thread nD τ).loc main_arg7)) :=
  ((keepR4 m c main_arg7 (by decide)).trans ((keepR3 m c main_arg7 (by decide)).trans ((keepR2 m c main_arg7 (by decide)).trans ((keepR1 m c main_arg7 (by decide)).trans (keepR0 m c main_arg7 (by decide)))))).trans rfl
theorem argR8_at6 : U6 m c (Proc.devRef .tc main_arg8) = (m ((c.tc : Thread nD τ).loc main_arg8)) :=
  ((keepR5 m c main_arg8 (by decide)).trans ((keepR4 m c main_arg8 (by decide)).trans ((keepR3 m c main_arg8 (by decide)).trans ((keepR2 m c main_arg8 (by decide)).trans ((keepR1 m c main_arg8 (by decide)).trans (keepR0 m c main_arg8 (by decide))))))).trans rfl
theorem argR9_at6 : U6 m c (Proc.devRef .tc main_arg9) = (m ((c.tc : Thread nD τ).loc main_arg9)) :=
  ((keepR5 m c main_arg9 (by decide)).trans ((keepR4 m c main_arg9 (by decide)).trans ((keepR3 m c main_arg9 (by decide)).trans ((keepR2 m c main_arg9 (by decide)).trans ((keepR1 m c main_arg9 (by decide)).trans (keepR0 m c main_arg9 (by decide))))))).trans rfl
theorem argR10_at7 : U7 m c (Proc.devRef .tc main_arg10) = (m ((c.tc : Thread nD τ).loc main_arg10)) :=
  ((keepR6 m c main_arg10 (by decide)).trans ((keepR5 m c main_arg10 (by decide)).trans ((keepR4 m c main_arg10 (by decide)).trans ((keepR3 m c main_arg10 (by decide)).trans ((keepR2 m c main_arg10 (by decide)).trans ((keepR1 m c main_arg10 (by decide)).trans (keepR0 m c main_arg10 (by decide)))))))).trans rfl
theorem argR11_at7 : U7 m c (Proc.devRef .tc main_arg11) = (m ((c.tc : Thread nD τ).loc main_arg11)) :=
  ((keepR6 m c main_arg11 (by decide)).trans ((keepR5 m c main_arg11 (by decide)).trans ((keepR4 m c main_arg11 (by decide)).trans ((keepR3 m c main_arg11 (by decide)).trans ((keepR2 m c main_arg11 (by decide)).trans ((keepR1 m c main_arg11 (by decide)).trans (keepR0 m c main_arg11 (by decide)))))))).trans rfl
theorem rv3_at4 : U4 m c (Proc.devRef .tc main_v3) = U3 m c (Proc.devRef .tc main_v3) :=
  (keepR3 m c main_v3 (by decide))
theorem rv6_at4 : U4 m c (Proc.devRef .tc main_v6) = U3 m c (Proc.devRef .tc main_v6) :=
  (keepR3 m c main_v6 (by decide))
theorem rv32_at4 : U4 m c (Proc.devRef .tc main_v32) = U3 m c (Proc.devRef .tc main_v32) :=
  (keepR3 m c main_v32 (by decide))
theorem rv3_at5 : U5 m c (Proc.devRef .tc main_v3) = U3 m c (Proc.devRef .tc main_v3) :=
  ((keepR4 m c main_v3 (by decide)).trans (keepR3 m c main_v3 (by decide)))
theorem rv6_at5 : U5 m c (Proc.devRef .tc main_v6) = U3 m c (Proc.devRef .tc main_v6) :=
  ((keepR4 m c main_v6 (by decide)).trans (keepR3 m c main_v6 (by decide)))
theorem rv32_at5 : U5 m c (Proc.devRef .tc main_v32) = U3 m c (Proc.devRef .tc main_v32) :=
  ((keepR4 m c main_v32 (by decide)).trans (keepR3 m c main_v32 (by decide)))
theorem rv3_at6 : U6 m c (Proc.devRef .tc main_v3) = U3 m c (Proc.devRef .tc main_v3) :=
  ((keepR5 m c main_v3 (by decide)).trans ((keepR4 m c main_v3 (by decide)).trans (keepR3 m c main_v3 (by decide))))
theorem rv6_at6 : U6 m c (Proc.devRef .tc main_v6) = U3 m c (Proc.devRef .tc main_v6) :=
  ((keepR5 m c main_v6 (by decide)).trans ((keepR4 m c main_v6 (by decide)).trans (keepR3 m c main_v6 (by decide))))
theorem rv32_at6 : U6 m c (Proc.devRef .tc main_v32) = U3 m c (Proc.devRef .tc main_v32) :=
  ((keepR5 m c main_v32 (by decide)).trans ((keepR4 m c main_v32 (by decide)).trans (keepR3 m c main_v32 (by decide))))
theorem rv3_at7 : U7 m c (Proc.devRef .tc main_v3) = U3 m c (Proc.devRef .tc main_v3) :=
  ((keepR6 m c main_v3 (by decide)).trans ((keepR5 m c main_v3 (by decide)).trans ((keepR4 m c main_v3 (by decide)).trans (keepR3 m c main_v3 (by decide)))))
theorem rv6_at7 : U7 m c (Proc.devRef .tc main_v6) = U3 m c (Proc.devRef .tc main_v6) :=
  ((keepR6 m c main_v6 (by decide)).trans ((keepR5 m c main_v6 (by decide)).trans ((keepR4 m c main_v6 (by decide)).trans (keepR3 m c main_v6 (by decide)))))
theorem rv32_at7 : U7 m c (Proc.devRef .tc main_v32) = U3 m c (Proc.devRef .tc main_v32) :=
  ((keepR6 m c main_v32 (by decide)).trans ((keepR5 m c main_v32 (by decide)).trans ((keepR4 m c main_v32 (by decide)).trans (keepR3 m c main_v32 (by decide)))))

/-! ## The graph pieces after the third segment -/

theorem src_at3 : U3 m c (Proc.devRef .tc main_v3) = srcOf (m ((c.tc : Thread nD τ).loc main_arg1)) :=
  ((keepR2 m c main_v3 (by decide)).trans (keepR1 m c main_v3 (by decide))).trans (seg0_src (U0 m c))
theorem dst_at3 : U3 m c (Proc.devRef .tc main_v6) = dstOf (m ((c.tc : Thread nD τ).loc main_arg1)) :=
  ((keepR2 m c main_v6 (by decide)).trans (keepR1 m c main_v6 (by decide))).trans (seg0_dst (U0 m c))
theorem norm_at3 : U3 m c (Proc.devRef .tc main_v32) = normOf (m ((c.tc : Thread nD τ).loc main_arg1)) := by
  have h3 : U3 m c (Proc.devRef .tc main_v32) = normFrom (U2 m c (Proc.devRef .tc main_v16)) (U2 m c (Proc.devRef .tc main_v3)) (U2 m c (Proc.devRef .tc main_v6)) :=
    seg2_norm (U2 m c)
  have h2 : U2 m c (Proc.devRef .tc main_v16) = disFrom (U1 m c (Proc.devRef .tc main_v12)) (U1 m c (Proc.devRef .tc main_v15)) (U1 m c (Proc.devRef .tc main_cst_3)) :=
    seg1_dis (U1 m c)
  have a : U1 m c (Proc.devRef .tc main_v12) = posFrom (dstOf (U0 m c (Proc.devRef .tc main_arg1))) := seg0_pos (U0 m c)
  have b : U1 m c (Proc.devRef .tc main_v15) = rsqrtFrom (dstOf (U0 m c (Proc.devRef .tc main_arg1))) := seg0_rsqrt (U0 m c)
  have z : U1 m c (Proc.devRef .tc main_cst_3) = constant (F := Ideal) S_ .f32 0x00000000#32 := seg0_zero (U0 m c)
  have s : U1 m c (Proc.devRef .tc main_v3) = srcOf (U0 m c (Proc.devRef .tc main_arg1)) := seg0_src (U0 m c)
  have d : U1 m c (Proc.devRef .tc main_v6) = dstOf (U0 m c (Proc.devRef .tc main_arg1)) := seg0_dst (U0 m c)
  rw [h3, h2, keepR1 m c main_v3 (by decide), keepR1 m c main_v6 (by decide), a, b, z, s, d]
  rfl

/-! ## The five layers, and the result -/

theorem h1_eq : U4 m c (Proc.devRef .tc main_v49) = layer 500 (m ((c.tc : Thread nD τ).loc main_arg1)) (m ((c.tc : Thread nD τ).loc main_arg0)) (m ((c.tc : Thread nD τ).loc main_arg2)) (m ((c.tc : Thread nD τ).loc main_arg3)) := by
  have e : U4 m c (Proc.devRef .tc main_v49) = refLayer1 (U3 m c (Proc.devRef .tc main_v3)) (U3 m c (Proc.devRef .tc main_v6)) (U3 m c (Proc.devRef .tc main_v32)) (U3 m c (Proc.devRef .tc main_arg0)) (U3 m c (Proc.devRef .tc main_arg2)) (U3 m c (Proc.devRef .tc main_arg3)) :=
    seg3_out (U3 m c)
  rw [e, refLayer1_eq, src_at3 m c, dst_at3 m c, norm_at3 m c, argR0_at3 m c, argR2_at3 m c, argR3_at3 m c]
  rfl
theorem h2_eq : U5 m c (Proc.devRef .tc main_v66) = layer 128 (m ((c.tc : Thread nD τ).loc main_arg1)) (U4 m c (Proc.devRef .tc main_v49)) (m ((c.tc : Thread nD τ).loc main_arg4)) (m ((c.tc : Thread nD τ).loc main_arg5)) := by
  have e : U5 m c (Proc.devRef .tc main_v66) = refLayer (U4 m c (Proc.devRef .tc main_v3)) (U4 m c (Proc.devRef .tc main_v6)) (U4 m c (Proc.devRef .tc main_v32)) (U4 m c (Proc.devRef .tc main_v49)) (U4 m c (Proc.devRef .tc main_arg4)) (U4 m c (Proc.devRef .tc main_arg5)) :=
    seg4_out (U4 m c)
  rw [e, refLayer_eq, rv3_at4 m c, rv6_at4 m c, rv32_at4 m c, src_at3 m c, dst_at3 m c, norm_at3 m c, argR4_at4 m c, argR5_at4 m c]
  rfl
theorem h3_eq : U6 m c (Proc.devRef .tc main_v83) = layer 128 (m ((c.tc : Thread nD τ).loc main_arg1)) (U5 m c (Proc.devRef .tc main_v66)) (m ((c.tc : Thread nD τ).loc main_arg6)) (m ((c.tc : Thread nD τ).loc main_arg7)) := by
  have e : U6 m c (Proc.devRef .tc main_v83) = refLayer (U5 m c (Proc.devRef .tc main_v3)) (U5 m c (Proc.devRef .tc main_v6)) (U5 m c (Proc.devRef .tc main_v32)) (U5 m c (Proc.devRef .tc main_v66)) (U5 m c (Proc.devRef .tc main_arg6)) (U5 m c (Proc.devRef .tc main_arg7)) :=
    seg5_out (U5 m c)
  rw [e, refLayer_eq, rv3_at5 m c, rv6_at5 m c, rv32_at5 m c, src_at3 m c, dst_at3 m c, norm_at3 m c, argR6_at5 m c, argR7_at5 m c]
  rfl
theorem h4_eq : U7 m c (Proc.devRef .tc main_v100) = layer 128 (m ((c.tc : Thread nD τ).loc main_arg1)) (U6 m c (Proc.devRef .tc main_v83)) (m ((c.tc : Thread nD τ).loc main_arg8)) (m ((c.tc : Thread nD τ).loc main_arg9)) := by
  have e : U7 m c (Proc.devRef .tc main_v100) = refLayer (U6 m c (Proc.devRef .tc main_v3)) (U6 m c (Proc.devRef .tc main_v6)) (U6 m c (Proc.devRef .tc main_v32)) (U6 m c (Proc.devRef .tc main_v83)) (U6 m c (Proc.devRef .tc main_arg8)) (U6 m c (Proc.devRef .tc main_arg9)) :=
    seg6_out (U6 m c)
  rw [e, refLayer_eq, rv3_at6 m c, rv6_at6 m c, rv32_at6 m c, src_at3 m c, dst_at3 m c, norm_at3 m c, argR8_at6 m c, argR9_at6 m c]
  rfl
theorem h5_eq : U8 m c (Proc.devRef .tc main_v116) = lastLayer (m ((c.tc : Thread nD τ).loc main_arg1)) (U7 m c (Proc.devRef .tc main_v100)) (m ((c.tc : Thread nD τ).loc main_arg10)) (m ((c.tc : Thread nD τ).loc main_arg11)) := by
  have e : U8 m c (Proc.devRef .tc main_v116) = refLast (U7 m c (Proc.devRef .tc main_v3)) (U7 m c (Proc.devRef .tc main_v6)) (U7 m c (Proc.devRef .tc main_v32)) (U7 m c (Proc.devRef .tc main_v100)) (U7 m c (Proc.devRef .tc main_arg10)) (U7 m c (Proc.devRef .tc main_arg11)) :=
    seg7_out (U7 m c)
  rw [e, refLast_eq, rv3_at7 m c, rv6_at7 m c, rv32_at7 m c, src_at3 m c, dst_at3 m c, norm_at3 m c, argR10_at7 m c, argR11_at7 m c]
  rfl

/-- The result buffer after the whole line: the network of the arguments as launched. -/
theorem ref_result : StableHlo.after (ValueP.ops (F := Ideal)) (launchContents m c) (Proc.devRef .tc main_v116)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_after m c, h5_eq m c, h4_eq m c, h3_eq m c, h2_eq m c, h1_eq m c]
  rfl

end Cert.ReferenceIdeal.Segs

end
-- ==== Proof.RefRun.lean ====
/-
  The idealized reference's run: from any memory with zero counters every weakly fair execution of its line of host
  operations terminates, nothing faulting, with the result buffer at the network of the twelve arguments and the arguments
  unchanged — the result read through the segments, and an argument buffer is written by none of the 151 operations.
-/
import proofs.«164061_j20761871909627_1_alg».proof.Proof.RefCompose

set_option maxRecDepth 16384

noncomputable section

namespace Cert.ReferenceIdeal.Segs

open Cert.ReferenceIdeal Cert.ReferenceIdeal.Gen
open Idealize.ShloMosaic Idealize.ShloMosaic.TcCoe Idealize.SL.Sem Idealize.ShloMosaic.StableHlo
open Cert.Gcn (net)

variable (m : (ℓ : Loc nD τ sig) → Buf (Elt Ideal) ℓ)

/-- Segment 0 writes no argument buffer. -/
theorem keepArg0 (c : Dev nD) (b : Ref sig .tc) (hb : b ∈ ([main_arg0, main_arg1, main_arg2, main_arg3, main_arg4, main_arg5, main_arg6, main_arg7, main_arg8, main_arg9, main_arg10, main_arg11] : List (Ref sig .tc))) :
    U1 m c (Proc.devRef .tc b) = U0 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 1 writes no argument buffer. -/
theorem keepArg1 (c : Dev nD) (b : Ref sig .tc) (hb : b ∈ ([main_arg0, main_arg1, main_arg2, main_arg3, main_arg4, main_arg5, main_arg6, main_arg7, main_arg8, main_arg9, main_arg10, main_arg11] : List (Ref sig .tc))) :
    U2 m c (Proc.devRef .tc b) = U1 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 2 writes no argument buffer. -/
theorem keepArg2 (c : Dev nD) (b : Ref sig .tc) (hb : b ∈ ([main_arg0, main_arg1, main_arg2, main_arg3, main_arg4, main_arg5, main_arg6, main_arg7, main_arg8, main_arg9, main_arg10, main_arg11] : List (Ref sig .tc))) :
    U3 m c (Proc.devRef .tc b) = U2 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 3 writes no argument buffer. -/
theorem keepArg3 (c : Dev nD) (b : Ref sig .tc) (hb : b ∈ ([main_arg0, main_arg1, main_arg2, main_arg3, main_arg4, main_arg5, main_arg6, main_arg7, main_arg8, main_arg9, main_arg10, main_arg11] : List (Ref sig .tc))) :
    U4 m c (Proc.devRef .tc b) = U3 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 4 writes no argument buffer. -/
theorem keepArg4 (c : Dev nD) (b : Ref sig .tc) (hb : b ∈ ([main_arg0, main_arg1, main_arg2, main_arg3, main_arg4, main_arg5, main_arg6, main_arg7, main_arg8, main_arg9, main_arg10, main_arg11] : List (Ref sig .tc))) :
    U5 m c (Proc.devRef .tc b) = U4 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 5 writes no argument buffer. -/
theorem keepArg5 (c : Dev nD) (b : Ref sig .tc) (hb : b ∈ ([main_arg0, main_arg1, main_arg2, main_arg3, main_arg4, main_arg5, main_arg6, main_arg7, main_arg8, main_arg9, main_arg10, main_arg11] : List (Ref sig .tc))) :
    U6 m c (Proc.devRef .tc b) = U5 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 6 writes no argument buffer. -/
theorem keepArg6 (c : Dev nD) (b : Ref sig .tc) (hb : b ∈ ([main_arg0, main_arg1, main_arg2, main_arg3, main_arg4, main_arg5, main_arg6, main_arg7, main_arg8, main_arg9, main_arg10, main_arg11] : List (Ref sig .tc))) :
    U7 m c (Proc.devRef .tc b) = U6 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Segment 7 writes no argument buffer. -/
theorem keepArg7 (c : Dev nD) (b : Ref sig .tc) (hb : b ∈ ([main_arg0, main_arg1, main_arg2, main_arg3, main_arg4, main_arg5, main_arg6, main_arg7, main_arg8, main_arg9, main_arg10, main_arg11] : List (Ref sig .tc))) :
    U8 m c (Proc.devRef .tc b) = U7 m c (Proc.devRef .tc b) := by
  simp only [List.mem_cons, List.mem_nil_iff, or_false] at hb
  rcases hb with rfl | rfl | rfl | rfl | rfl | rfl | rfl | rfl | rfl | rfl | rfl | rfl
  all_goals
    exact StableHlo.after_of_forall_not_mem _ _ (List.forall_iff_forall_mem.mp (by
      simp only [seg7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of the line writes an argument buffer: an argument ends as launched. -/
theorem args_kept (c : Dev nD) (b : Ref sig .tc) (hb : b ∈ ([main_arg0, main_arg1, main_arg2, main_arg3, main_arg4, main_arg5, main_arg6, main_arg7, main_arg8, main_arg9, main_arg10, main_arg11] : List (Ref sig .tc))) :
    StableHlo.after (ValueP.ops (F := Ideal)) (launchContents m c) (Proc.devRef .tc b) = m ((c.tc : Thread nD τ).loc b) := by
  rw [ops_after m c]
  exact ((keepArg7 m c b hb).trans ((keepArg6 m c b hb).trans ((keepArg5 m c b hb).trans ((keepArg4 m c b hb).trans ((keepArg3 m c b hb).trans ((keepArg2 m c b hb).trans ((keepArg1 m c b hb).trans (keepArg0 m c b hb)))))))).trans rfl

theorem ref_run (ρ : Dev nD → PrngReg) :
    θ_run defs (onTc (τ := τ) (main (F := Ideal))) ⟨m, fun _ => 0, ρ⟩ fun r => ∀ c : Dev nD,
      r.2.mem ((c.tc : Thread nD τ).loc main_v116)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v116).trans (ref_result m c),
      (h c main_arg0).trans (args_kept m c main_arg0 (by decide)),
      (h c main_arg1).trans (args_kept m c main_arg1 (by decide)),
      (h c main_arg2).trans (args_kept m c main_arg2 (by decide)),
      (h c main_arg3).trans (args_kept m c main_arg3 (by decide)),
      (h c main_arg4).trans (args_kept m c main_arg4 (by decide)),
      (h c main_arg5).trans (args_kept m c main_arg5 (by decide)),
      (h c main_arg6).trans (args_kept m c main_arg6 (by decide)),
      (h c main_arg7).trans (args_kept m c main_arg7 (by decide)),
      (h c main_arg8).trans (args_kept m c main_arg8 (by decide)),
      (h c main_arg9).trans (args_kept m c main_arg9 (by decide)),
      (h c main_arg10).trans (args_kept m c main_arg10 (by decide)),
      (h c main_arg11).trans (args_kept m c main_arg11 (by decide))⟩)
    (run_seq ValueP.scopedRefs_eq ValueP.scopedSems_eq defs main (fun _ => ValueP.ops) ValueP.main_eq (fun _ => ValueP.ops_sub) m ρ)

end Cert.ReferenceIdeal.Segs

end
-- ==== Proof.lean ====
/-
  A five-layer graph convolution network: the Pallas kernel against its jnp reference, at the extended reals.

  Both programs build, from the edge list, the self-looped source and destination lists, the in-degrees and the symmetric
  per-edge weights dis[src] * dis[dst], and both aggregate a layer's product over the edges with the host's gather,
  multiply and scatter-add.  The kernel computes each layer's product h · W and each layer's bias (and relu) in pipelined
  regions, 5000 rows at a point: a matrix-unit product of operands rounded to bf16 into a zero accumulator, and a bias row
  broadcast down the rows; the reference computes them on the host with dot_general, a broadcast add and a maximum.  At the
  extended reals a change of float format is the identity and both products are the same finite sum over the inner
  position, so region by region, segment by segment, both results are the one function net of the twelve arguments
  (Proof/Layers.lean for the kernel, Proof/RefCompose.lean for the reference).  Neither finiteness of the inputs nor any
  rearrangement of a sum is used.  The ideal pass rewrote nothing, so the kernel's idealization is its own text.
-/
import proofs.«164061_j20761871909627_1_alg».proof.Defs
import proofs.«164061_j20761871909627_1_alg».proof.Proof.Gen.Kernel
import proofs.«164061_j20761871909627_1_alg».proof.Proof.Gen.Kernel.Skeleton
import proofs.«164061_j20761871909627_1_alg».proof.Proof.Gen.Kernel.Launch
import proofs.«164061_j20761871909627_1_alg».proof.Proof.Gen.Kernel.Points
import proofs.«164061_j20761871909627_1_alg».proof.Proof.Gen.Kernel.Frame
import proofs.«164061_j20761871909627_1_alg».proof.Proof.Gen.KernelIdeal
import proofs.«164061_j20761871909627_1_alg».proof.Proof.Gen.KernelIdeal.Skeleton
import proofs.«164061_j20761871909627_1_alg».proof.Proof.Gen.KernelIdeal.Launch
import proofs.«164061_j20761871909627_1_alg».proof.Proof.Gen.KernelIdeal.Points
import proofs.«164061_j20761871909627_1_alg».proof.Proof.Gen.KernelIdeal.Frame
import proofs.«164061_j20761871909627_1_alg».proof.Proof.Gen.ReferenceIdeal
import proofs.«164061_j20761871909627_1_alg».proof.Proof.Gen.Pre_finite_inputs
import proofs.«164061_j20761871909627_1_alg».proof.Proof.ReferenceRun
import proofs.«164061_j20761871909627_1_alg».proof.Proof.Layers
import proofs.«164061_j20761871909627_1_alg».proof.Proof.RefRun
import Idealize.ShloMosaic.Adequacy
import Idealize.ShloMosaic.Init

noncomputable section

namespace Cert.Proof

open Idealize.ShloMosaic Idealize.SL.Sem

/-- The three frames: the two kernels' from their regions' frame certificate, the reference's from its run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Segs.ref_run m ρ)

/-- Run from memories that agree on the arguments, both idealized programs end with their result at net of the arguments. -/
theorem algebraic : Cert.algebraic_KernelIdeal_ReferenceIdeal := by
  intro m ρ m' ρ' _ hagree
  refine ⟨_, Cert.Gcn.kernel_run m ρ, ?_⟩
  refine (θ_run Cert.ReferenceIdeal.defs _ _).mono (fun _ h c => ⟨(h c).1.trans ?_, (h c).2⟩)
    (Cert.ReferenceIdeal.Segs.ref_run m' ρ')
  obtain ⟨h0, h1, h2, h3, h4, h5, h6, h7, h8, h9, h10, h11⟩ := hagree c
  rw [h0, h1, h2, h3, h4, h5, h6, h7, h8, h9, h10, h11]
  all_goals rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
